-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S1x32768 : Shape := ⟨2, ![1, 32768]⟩
abbrev S1x2048 : Shape := ⟨2, ![1, 2048]⟩
abbrev S1x1024 : Shape := ⟨2, ![1, 1024]⟩
abbrev S4096 : Shape := ⟨1, ![4096]⟩
abbrev S1x512x3968 : Shape := ⟨3, ![1, 512, 3968]⟩
abbrev S1x1024x128 : Shape := ⟨3, ![1, 1024, 128]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S1x32768 : S_.BroadcastsInDim S1x32768 (![] : Fin 0 → Fin S1x32768.rank)
  reducesTo_S1x32768_S_d0_1 : S1x32768.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x4096x4096 .f32) (main_arg1 : FVec F S1x32768 .f32) (main_arg2 : FVec F S1x2048 .f32) (main_arg3 : FVec F S1x1024 .f32) (main_arg4 : FVec F S4096 .f32) (main_arg5 : FVec F S4096 .f32) (main_arg6 : IVec S1x512x3968 32) (main_arg7 : IVec S1x512x3968 32) (main_arg8 : IVec S1x1024x128 32) (main_arg9 : IVec S4096 32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S1x32768 .f32 := Host.absf main_arg1
  let main_cst_0 : FVec F S_ .f32 := constant S_ .f32 0x7F800000#32
  let main_v5 : FVec F S1x32768 .f32 := broadcastInDim S1x32768 ![] bcast_S_S1x32768 main_cst_0
  let main_v6 : IVec S1x32768 1 := cmpf .olt main_v4 main_v5
  let main_c_1 : IVec S_ 1 := constantI S_ 1 1#1
  let main_v7 : IVec S_ 1 := (fun x v => Host.reduce IntOp.andi x v reducesTo_S1x32768_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S2x4096x4096 : Shape := ⟨3, ![2, 4096, 4096]⟩
abbrev S1x32768 : Shape := ⟨2, ![1, 32768]⟩
abbrev S1x2048 : Shape := ⟨2, ![1, 2048]⟩
abbrev S1x1024 : Shape := ⟨2, ![1, 1024]⟩
abbrev S4096 : Shape := ⟨1, ![4096]⟩
abbrev S1x512x3968 : Shape := ⟨3, ![1, 512, 3968]⟩
abbrev S1x1024x128 : Shape := ⟨3, ![1, 1024, 128]⟩
abbrev S1x4096x8 : Shape := ⟨3, ![1, 4096, 8]⟩
abbrev S1x256x8 : Shape := ⟨3, ![1, 256, 8]⟩
abbrev S_ : Shape := ⟨0, ![]⟩
abbrev S1x512x3968x1 : Shape := ⟨4, ![1, 512, 3968, 1]⟩
abbrev S1x512x3968x8 : Shape := ⟨4, ![1, 512, 3968, 8]⟩
abbrev S1x3968x512x8 : Shape := ⟨4, ![1, 3968, 512, 8]⟩
abbrev S3968x4096 : Shape := ⟨2, ![3968, 4096]⟩
abbrev S256x4 : Shape := ⟨2, ![256, 4]⟩
abbrev S1024x128 : Shape := ⟨2, ![1024, 128]⟩
abbrev S1024x128x1 : Shape := ⟨3, ![1024, 128, 1]⟩
abbrev S1024x128x4 : Shape := ⟨3, ![1024, 128, 4]⟩
abbrev S128x1024x4 : Shape := ⟨3, ![128, 1024, 4]⟩
abbrev S128x4096 : Shape := ⟨2, ![128, 4096]⟩
abbrev S4096x4096 : Shape := ⟨2, ![4096, 4096]⟩
abbrev S4096x1 : Shape := ⟨2, ![4096, 1]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 76
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S1x32768, .f32⟩
  | .hbm, ⟨2, _⟩ => ⟨S1x2048, .f32⟩
  | .hbm, ⟨3, _⟩ => ⟨S1x1024, .f32⟩
  | .hbm, ⟨4, _⟩ => ⟨S4096, .f32⟩
  | .hbm, ⟨5, _⟩ => ⟨S4096, .f32⟩
  | .hbm, ⟨6, _⟩ => ⟨S1x512x3968, .i32⟩
  | .hbm, ⟨7, _⟩ => ⟨S1x512x3968, .i32⟩
  | .hbm, ⟨8, _⟩ => ⟨S1x1024x128, .i32⟩
  | .hbm, ⟨9, _⟩ => ⟨S4096, .i32⟩
  | .hbm, ⟨10, _⟩ => ⟨S1x4096x8, .f32⟩
  | .hbm, ⟨11, _⟩ => ⟨S1x256x8, .f32⟩
  | .hbm, ⟨12, _⟩ => ⟨S_, .i32⟩
  | .hbm, ⟨13, _⟩ => ⟨S1x512x3968, .i32⟩
  | .hbm, ⟨14, _⟩ => ⟨S1x512x3968, .i1⟩
  | .hbm, ⟨15, _⟩ => ⟨S_, .i32⟩
  | .hbm, ⟨16, _⟩ => ⟨S1x512x3968, .i32⟩
  | .hbm, ⟨17, _⟩ => ⟨S1x512x3968, .i32⟩
  | .hbm, ⟨18, _⟩ => ⟨S1x512x3968, .i32⟩
  | .hbm, ⟨19, _⟩ => ⟨S1x512x3968x1, .i32⟩
  | .hbm, ⟨20, _⟩ => ⟨S1x512x3968x8, .f32⟩
  | .hbm, ⟨21, _⟩ => ⟨S_, .i32⟩
  | .hbm, ⟨22, _⟩ => ⟨S1x512x3968, .i32⟩
  | .hbm, ⟨23, _⟩ => ⟨S1x512x3968, .i1⟩
  | .hbm, ⟨24, _⟩ => ⟨S_, .i32⟩
  | .hbm, ⟨25, _⟩ => ⟨S1x512x3968, .i32⟩
  | .hbm, ⟨26, _⟩ => ⟨S1x512x3968, .i32⟩
  | .hbm, ⟨27, _⟩ => ⟨S1x512x3968, .i32⟩
  | .hbm, ⟨28, _⟩ => ⟨S1x512x3968x1, .i32⟩
  | .hbm, ⟨29, _⟩ => ⟨S1x512x3968x8, .f32⟩
  | .hbm, ⟨30, _⟩ => ⟨S1x512x3968x8, .f32⟩
  | .hbm, ⟨31, _⟩ => ⟨S1x3968x512x8, .f32⟩
  | .hbm, ⟨32, _⟩ => ⟨S3968x4096, .f32⟩
  | .hbm, ⟨33, _⟩ => ⟨S256x4, .f32⟩
  | .hbm, ⟨34, _⟩ => ⟨S1024x128, .i32⟩
  | .hbm, ⟨35, _⟩ => ⟨S_, .i32⟩
  | .hbm, ⟨36, _⟩ => ⟨S1024x128, .i32⟩
  | .hbm, ⟨37, _⟩ => ⟨S1024x128, .i1⟩
  | .hbm, ⟨38, _⟩ => ⟨S_, .i32⟩
  | .hbm, ⟨39, _⟩ => ⟨S1024x128, .i32⟩
  | .hbm, ⟨40, _⟩ => ⟨S1024x128, .i32⟩
  | .hbm, ⟨41, _⟩ => ⟨S1024x128, .i32⟩
  | .hbm, ⟨42, _⟩ => ⟨S1024x128x1, .i32⟩
  | .hbm, ⟨43, _⟩ => ⟨S1024x128x4, .f32⟩
  | .hbm, ⟨44, _⟩ => ⟨S128x1024x4, .f32⟩
  | .hbm, ⟨45, _⟩ => ⟨S128x4096, .f32⟩
  | .hbm, ⟨46, _⟩ => ⟨S4096x4096, .f32⟩
  | .hbm, ⟨47, _⟩ => ⟨S4096x1, .f32⟩
  | .hbm, ⟨48, _⟩ => ⟨S4096x4096, .f32⟩
  | .hbm, ⟨49, _⟩ => ⟨S4096x4096, .f32⟩
  | .hbm, ⟨50, _⟩ => ⟨S4096x1, .f32⟩
  | .hbm, ⟨51, _⟩ => ⟨S4096x4096, .f32⟩
  | .hbm, ⟨52, _⟩ => ⟨S4096x4096, .f32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x4096, .f32⟩
  | .hbm, ⟨65, _⟩ => ⟨S4096x4096, .bf16⟩
  | .hbm, ⟨66, _⟩ => ⟨S4096x4096, .f32⟩
  | .hbm, ⟨67, _⟩ => ⟨S4096x4096, .f32⟩
  | .hbm, ⟨68, _⟩ => ⟨S4096x4096, .bf16⟩
  | .hbm, ⟨69, _⟩ => ⟨S8192x4096, .f32⟩
  | .hbm, ⟨70, _⟩ => ⟨S8192x4096, .bf16⟩
  | .hbm, ⟨71, _⟩ => ⟨S8192x4096, .f32⟩
  | .hbm, ⟨72, _⟩ => ⟨S8192x4096, .f32⟩
  | .hbm, ⟨73, _⟩ => ⟨S8192x4096, .bf16⟩
  | .hbm, ⟨74, _⟩ => ⟨S8192x4096, .f32⟩
  | .hbm, ⟨75, _⟩ => ⟨S2x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1_0 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S1x32768_S1x4096x8 : S1x32768.ShapeCasts S1x4096x8
  shapeCasts_S1x2048_S1x256x8 : S1x2048.ShapeCasts S1x256x8
  bcast_S_S1x512x3968 : S_.BroadcastsInDim S1x512x3968 (![] : Fin 0 → Fin S1x512x3968.rank)
  bcast_S1x512x3968_S1x512x3968x1_0_1_2 : S1x512x3968.BroadcastsInDim S1x512x3968x1 (![0, 1, 2] : Fin 3 → Fin S1x512x3968x1.rank)
  transposes_S1x512x3968x8_S1x3968x512x8_0_2_1_3 : S1x512x3968x8.Transposes [0, 2, 1, 3] S1x3968x512x8
  shapeCasts_S1x3968x512x8_S3968x4096 : S1x3968x512x8.ShapeCasts S3968x4096
  shapeCasts_S1x1024_S256x4 : S1x1024.ShapeCasts S256x4
  shapeCasts_S1x1024x128_S1024x128 : S1x1024x128.ShapeCasts S1024x128
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  transposes_S1024x128x4_S128x1024x4_1_0_2 : S1024x128x4.Transposes [1, 0, 2] S128x1024x4
  shapeCasts_S128x1024x4_S128x4096 : S128x1024x4.ShapeCasts S128x4096
  concatenates_S128x4096_S3968x4096_S4096x4096_d0 : Shape.Concatenates [S128x4096, S3968x4096] S4096x4096 0
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  bitsLt_bf16_f32 : FTy.bits .bf16 < FTy.bits .f32
  shapeCasts_S2x4096x4096_S8192x4096 : S2x4096x4096.ShapeCasts S8192x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S2x4096x4096 : S8192x4096.ShapeCasts S2x4096x4096
  gather_S1x4096x8_S1x512x3968x1_S1x512x3968x8_3_1_0_0_1_3_118_wf : GatherDims.WF S1x4096x8 S1x512x3968x1 S1x512x3968x8 [3] [1] [0] [1] [0] 3 ![1, 1, 8]
  gather_S1x256x8_S1x512x3968x1_S1x512x3968x8_3_1_0_0_1_3_118_wf : GatherDims.WF S1x256x8 S1x512x3968x1 S1x512x3968x8 [3] [1] [0] [1] [0] 3 ![1, 1, 8]
  gather_S256x4_S1024x128x1_S1024x128x4_2_0_n_n_0_2_14_wf : GatherDims.WF S256x4 S1024x128x1 S1024x128x4 [2] [0] [] [0] [] 2 ![1, 4]
  gather_S4096x4096_S4096x1_S4096x4096_1_0_n_n_0_1_14096_wf : GatherDims.WF S4096x4096 S4096x1 S4096x4096 [1] [0] [] [0] [] 1 ![1, 4096]
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x4096.size a
  hwx0_1 : ∀ i : grid0.Coords, EltTy.bits .bf16 = 32 ∨ (Rect.block (s := S8192x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def gather_S1x4096x8_S1x512x3968x1_S1x512x3968x8_3_1_0_0_1_3_118 : GatherDims S1x4096x8 S1x512x3968x1 S1x512x3968x8 where
  offsetDims := [3]
  collapsedSliceDims := [1]
  operandBatchingDims := [0]
  startIndicesBatchingDims := [0]
  startIndexMap := [1]
  indexVectorDim := 3
  sliceSizes := ![1, 1, 8]
  wf := gather_S1x4096x8_S1x512x3968x1_S1x512x3968x8_3_1_0_0_1_3_118_wf
def gather_S1x256x8_S1x512x3968x1_S1x512x3968x8_3_1_0_0_1_3_118 : GatherDims S1x256x8 S1x512x3968x1 S1x512x3968x8 where
  offsetDims := [3]
  collapsedSliceDims := [1]
  operandBatchingDims := [0]
  startIndicesBatchingDims := [0]
  startIndexMap := [1]
  indexVectorDim := 3
  sliceSizes := ![1, 1, 8]
  wf := gather_S1x256x8_S1x512x3968x1_S1x512x3968x8_3_1_0_0_1_3_118_wf
def gather_S256x4_S1024x128x1_S1024x128x4_2_0_n_n_0_2_14 : GatherDims S256x4 S1024x128x1 S1024x128x4 where
  offsetDims := [2]
  collapsedSliceDims := [0]
  operandBatchingDims := []
  startIndicesBatchingDims := []
  startIndexMap := [0]
  indexVectorDim := 2
  sliceSizes := ![1, 4]
  wf := gather_S256x4_S1024x128x1_S1024x128x4_2_0_n_n_0_2_14_wf
def comparator_i32_i32_d0 : BitVec 32 × BitVec 32 → BitVec 32 × BitVec 32 → BitVec 1 :=
  fun l r =>
    let v2 := IntOp.cmpi .slt l.1 r.1
    v2
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v50) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S1x32768 : Shape := ⟨2, ![1, 32768]⟩
abbrev S1x2048 : Shape := ⟨2, ![1, 2048]⟩
abbrev S1x1024 : Shape := ⟨2, ![1, 1024]⟩
abbrev S4096 : Shape := ⟨1, ![4096]⟩
abbrev S1x512x3968 : Shape := ⟨3, ![1, 512, 3968]⟩
abbrev S1x1024x128 : Shape := ⟨3, ![1, 1024, 128]⟩
abbrev S1x4096x8 : Shape := ⟨3, ![1, 4096, 8]⟩
abbrev S1x256x8 : Shape := ⟨3, ![1, 256, 8]⟩
abbrev S_ : Shape := ⟨0, ![]⟩
abbrev S1x512x3968x1 : Shape := ⟨4, ![1, 512, 3968, 1]⟩
abbrev S1x512x3968x8 : Shape := ⟨4, ![1, 512, 3968, 8]⟩
abbrev S512x8x1x3968 : Shape := ⟨4, ![512, 8, 1, 3968]⟩
abbrev S4096x3968 : Shape := ⟨2, ![4096, 3968]⟩
abbrev S256x4 : Shape := ⟨2, ![256, 4]⟩
abbrev S1024x128 : Shape := ⟨2, ![1024, 128]⟩
abbrev S1024x128x1 : Shape := ⟨3, ![1024, 128, 1]⟩
abbrev S1024x128x4 : Shape := ⟨3, ![1024, 128, 4]⟩
abbrev S1024x4x128 : Shape := ⟨3, ![1024, 4, 128]⟩
abbrev S4096x128 : Shape := ⟨2, ![4096, 128]⟩
abbrev S4096x4096 : Shape := ⟨2, ![4096, 4096]⟩
abbrev S1x4096 : Shape := ⟨2, ![1, 4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x32768, .f32⟩
  | .hbm, ⟨2, _⟩ => ⟨S1x2048, .f32⟩
  | .hbm, ⟨3, _⟩ => ⟨S1x1024, .f32⟩
  | .hbm, ⟨4, _⟩ => ⟨S4096, .f32⟩
  | .hbm, ⟨5, _⟩ => ⟨S4096, .f32⟩
  | .hbm, ⟨6, _⟩ => ⟨S1x512x3968, .i32⟩
  | .hbm, ⟨7, _⟩ => ⟨S1x512x3968, .i32⟩
  | .hbm, ⟨8, _⟩ => ⟨S1x1024x128, .i32⟩
  | .hbm, ⟨9, _⟩ => ⟨S4096, .i32⟩
  | .hbm, ⟨10, _⟩ => ⟨S1x4096x8, .f32⟩
  | .hbm, ⟨11, _⟩ => ⟨S1x256x8, .f32⟩
  | .hbm, ⟨12, _⟩ => ⟨S_, .i32⟩
  | .hbm, ⟨13, _⟩ => ⟨S1x512x3968, .i32⟩
  | .hbm, ⟨14, _⟩ => ⟨S1x512x3968, .i1⟩
  | .hbm, ⟨15, _⟩ => ⟨S_, .i32⟩
  | .hbm, ⟨16, _⟩ => ⟨S1x512x3968, .i32⟩
  | .hbm, ⟨17, _⟩ => ⟨S1x512x3968, .i32⟩
  | .hbm, ⟨18, _⟩ => ⟨S1x512x3968, .i32⟩
  | .hbm, ⟨19, _⟩ => ⟨S1x512x3968x1, .i32⟩
  | .hbm, ⟨20, _⟩ => ⟨S1x512x3968x8, .f32⟩
  | .hbm, ⟨21, _⟩ => ⟨S_, .i32⟩
  | .hbm, ⟨22, _⟩ => ⟨S1x512x3968, .i32⟩
  | .hbm, ⟨23, _⟩ => ⟨S1x512x3968, .i1⟩
  | .hbm, ⟨24, _⟩ => ⟨S_, .i32⟩
  | .hbm, ⟨25, _⟩ => ⟨S1x512x3968, .i32⟩
  | .hbm, ⟨26, _⟩ => ⟨S1x512x3968, .i32⟩
  | .hbm, ⟨27, _⟩ => ⟨S1x512x3968, .i32⟩
  | .hbm, ⟨28, _⟩ => ⟨S1x512x3968x1, .i32⟩
  | .hbm, ⟨29, _⟩ => ⟨S1x512x3968x8, .f32⟩
  | .hbm, ⟨30, _⟩ => ⟨S1x512x3968x8, .f32⟩
  | .hbm, ⟨31, _⟩ => ⟨S512x8x1x3968, .f32⟩
  | .hbm, ⟨32, _⟩ => ⟨S4096x3968, .f32⟩
  | .hbm, ⟨33, _⟩ => ⟨S256x4, .f32⟩
  | .hbm, ⟨34, _⟩ => ⟨S1024x128, .i32⟩
  | .hbm, ⟨35, _⟩ => ⟨S_, .i32⟩
  | .hbm, ⟨36, _⟩ => ⟨S1024x128, .i32⟩
  | .hbm, ⟨37, _⟩ => ⟨S1024x128, .i1⟩
  | .hbm, ⟨38, _⟩ => ⟨S_, .i32⟩
  | .hbm, ⟨39, _⟩ => ⟨S1024x128, .i32⟩
  | .hbm, ⟨40, _⟩ => ⟨S1024x128, .i32⟩
  | .hbm, ⟨41, _⟩ => ⟨S1024x128, .i32⟩
  | .hbm, ⟨42, _⟩ => ⟨S1024x128x1, .i32⟩
  | .hbm, ⟨43, _⟩ => ⟨S1024x128x4, .f32⟩
  | .hbm, ⟨44, _⟩ => ⟨S1024x4x128, .f32⟩
  | .hbm, ⟨45, _⟩ => ⟨S4096x128, .f32⟩
  | .hbm, ⟨46, _⟩ => ⟨S4096x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x4096, .f32⟩
  | .hbm, ⟨65, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1_0 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  shapeCasts_S1x32768_S1x4096x8 : S1x32768.ShapeCasts S1x4096x8
  shapeCasts_S1x2048_S1x256x8 : S1x2048.ShapeCasts S1x256x8
  bcast_S_S1x512x3968 : S_.BroadcastsInDim S1x512x3968 (![] : Fin 0 → Fin S1x512x3968.rank)
  bcast_S1x512x3968_S1x512x3968x1_0_1_2 : S1x512x3968.BroadcastsInDim S1x512x3968x1 (![0, 1, 2] : Fin 3 → Fin S1x512x3968x1.rank)
  transposes_S1x512x3968x8_S512x8x1x3968_1_3_0_2 : S1x512x3968x8.Transposes [1, 3, 0, 2] S512x8x1x3968
  shapeCasts_S512x8x1x3968_S4096x3968 : S512x8x1x3968.ShapeCasts S4096x3968
  shapeCasts_S1x1024_S256x4 : S1x1024.ShapeCasts S256x4
  shapeCasts_S1x1024x128_S1024x128 : S1x1024x128.ShapeCasts S1024x128
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  transposes_S1024x128x4_S1024x4x128_0_2_1 : S1024x128x4.Transposes [0, 2, 1] S1024x4x128
  shapeCasts_S1024x4x128_S4096x128 : S1024x4x128.ShapeCasts S4096x128
  concatenates_S4096x128_S4096x3968_S4096x4096_d1 : Shape.Concatenates [S4096x128, S4096x3968] S4096x4096 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  gather_S1x4096x8_S1x512x3968x1_S1x512x3968x8_3_1_0_0_1_3_118_wf : GatherDims.WF S1x4096x8 S1x512x3968x1 S1x512x3968x8 [3] [1] [0] [1] [0] 3 ![1, 1, 8]
  gather_S1x256x8_S1x512x3968x1_S1x512x3968x8_3_1_0_0_1_3_118_wf : GatherDims.WF S1x256x8 S1x512x3968x1 S1x512x3968x8 [3] [1] [0] [1] [0] 3 ![1, 1, 8]
  gather_S256x4_S1024x128x1_S1024x128x4_2_0_n_n_0_2_14_wf : GatherDims.WF S256x4 S1024x128x1 S1024x128x4 [2] [0] [] [0] [] 2 ![1, 4]
  gather_S4096x4096_S4096x1_S4096x4096_0_1_n_n_1_1_40961_wf : GatherDims.WF S4096x4096 S4096x1 S4096x4096 [0] [1] [] [1] [] 1 ![4096, 1]
  dot_S2x4096x4096_S4096x4096_S2x4096x4096_2_1_01_0_n_n_wf : DotDims.WF S2x4096x4096 S4096x4096 S2x4096x4096 [2] [1] [0, 1] [0] [] []

variable [Facts₀]

def gather_S1x4096x8_S1x512x3968x1_S1x512x3968x8_3_1_0_0_1_3_118 : GatherDims S1x4096x8 S1x512x3968x1 S1x512x3968x8 where
  offsetDims := [3]
  collapsedSliceDims := [1]
  operandBatchingDims := [0]
  startIndicesBatchingDims := [0]
  startIndexMap := [1]
  indexVectorDim := 3
  sliceSizes := ![1, 1, 8]
  wf := gather_S1x4096x8_S1x512x3968x1_S1x512x3968x8_3_1_0_0_1_3_118_wf
def gather_S1x256x8_S1x512x3968x1_S1x512x3968x8_3_1_0_0_1_3_118 : GatherDims S1x256x8 S1x512x3968x1 S1x512x3968x8 where
  offsetDims := [3]
  collapsedSliceDims := [1]
  operandBatchingDims := [0]
  startIndicesBatchingDims := [0]
  startIndexMap := [1]
  indexVectorDim := 3
  sliceSizes := ![1, 1, 8]
  wf := gather_S1x256x8_S1x512x3968x1_S1x512x3968x8_3_1_0_0_1_3_118_wf
def gather_S256x4_S1024x128x1_S1024x128x4_2_0_n_n_0_2_14 : GatherDims S256x4 S1024x128x1 S1024x128x4 where
  offsetDims := [2]
  collapsedSliceDims := [0]
  operandBatchingDims := []
  startIndicesBatchingDims := []
  startIndexMap := [0]
  indexVectorDim := 2
  sliceSizes := ![1, 4]
  wf := gather_S256x4_S1024x128x1_S1024x128x4_2_0_n_n_0_2_14_wf
def comparator_i32_i32_d0 : BitVec 32 × BitVec 32 → BitVec 32 × BitVec 32 → BitVec 1 :=
  fun l r =>
    let v2 := IntOp.cmpi .slt l.1 r.1
    v2
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.KerPieces.lean ====
/-
  What one run of the kernel body leaves behind, as a value.

  The body reads its four operand blocks (activations: main part `x0` and correction `x1`; weights: main part `x2`
  and correction `x3`), adds to the accumulator the three partial products of this block, and stores the sum back
  into the accumulator. At the first block of a contraction the accumulator is first cleared; at the last block the
  accumulator is also copied to the output block. So in every case the accumulator ends at ONE term, `k0_pay2` of the
  four blocks over what the accumulator held before (the cleared block `k0_pay1` at a first block), and at a last
  block the output block holds the same term.
-/
import proofs.«129023_j52596169507334_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle block: the accumulator `xs0` becomes `xs0` plus this block's three partial products. -/
theorem scr_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S2048x1024 .bf16) (x2 : Vec F S1024x1024 .bf16) (x3 : Vec F S1024x1024 .bf16) (xs0 : Vec F S2048x1024 .f32) :
    sout0_B_0 c i arg3 harg3 arg4 harg4 arg5 harg5 arg6 harg6 arg7 harg7 arg8 harg8 hc0 hc1 x0 x1 x2 x3 xs0 = k0_pay2 x0 x2 x3 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg5.read_unread, harg6.read_unread,
    harg8.read_unread, View.ld_unit_zero (S := S2048x1024) hz, View.ld_unit_zero (S := S1024x1024) hz]

/-- A last block: the accumulator becomes the same sum; -/
theorem scr_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs0 : Vec F S2048x1024 .f32) :
    sout0_C_0 c i arg3 harg3 arg4 harg4 arg5 harg5 arg6 harg6 arg7 harg7 arg8 harg8 hc0 hc1 x0 x1 x2 x3 xs0 = k0_pay2 x0 x2 x3 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread,
    harg8.read_unread, View.ld_unit_zero (S := S2048x1024) hz, View.ld_unit_zero (S := S1024x1024) hz]

/-- and the output block is the accumulator just stored, read back. -/
theorem out_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs0 : Vec F S2048x1024 .f32) :
    out0_C_4 c i arg3 harg3 arg4 harg4 arg5 harg5 arg6 harg6 arg7 harg7 arg8 harg8 hc0 hc1 x0 x1 x2 x3 xs0 = k0_pay2 x0 x2 x3 x1 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg6.read_unread,
    harg8.read_unread, View.ld_unit_zero (S := S2048x1024) hz, View.ld_unit_zero (S := S1024x1024) hz]

/-- A first block: the accumulator is cleared, read back, and becomes the cleared block plus the partial products. -/
theorem scr_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S2048x1024 .bf16) (x2 : Vec F S1024x1024 .bf16) (x3 : Vec F S1024x1024 .bf16) :
    sout0_A_0 c i arg3 harg3 arg4 harg4 arg5 harg5 arg6 harg6 arg7 harg7 arg8 harg8 hc0 hc1 x0 x1 x2 x3 = k0_pay2 x0 x2 x3 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread,
    View.ld_unit_zero (S := S2048x1024) hz, View.ld_unit_zero (S := S1024x1024) hz]

end Cert.KernelIdeal.Pieces

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.KerPayload.lean ====
/-
  The body's arithmetic at one entry, at the extended reals.

  Entry `(p, q)` of the updated accumulator is the old entry plus three sums over the 1024 contracted positions of
  this block: main·main, main·correction and correction·main of the activation row `p` against the weight column `q`.
  Each product into the zero accumulator is the plain sum of products over the contracted axis; the cleared
  accumulator is zero everywhere.
-/
import proofs.«129023_j52596169507334_2_alg».proof.Proof.Gen.KernelIdeal.Skeleton
import proofs.«129023_j52596169507334_2_alg».proof.Proof.LibMatmulZero
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The left operand's row is the output's row; -/
theorem lhs_row (j : S2048x1024.Idx) (r : dot_S2048x1024_S1024x1024_S2048x1024_1_0_0_1_n_n.contr.Idx) :
    (dot_S2048x1024_S1024x1024_S2048x1024_1_0_0_1_n_n.lhsIdx j r 0).val = (j 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- its column the contracted position; -/
theorem lhs_col (j : S2048x1024.Idx) (r : dot_S2048x1024_S1024x1024_S2048x1024_1_0_0_1_n_n.contr.Idx) :
    (dot_S2048x1024_S1024x1024_S2048x1024_1_0_0_1_n_n.lhsIdx j r 1).val = (r ⟨0, by decide⟩).val :=
  dot_S2048x1024_S1024x1024_S2048x1024_1_0_0_1_n_n.lhsIdx_val_of_single rfl j r

/-- the right operand's row is the contracted position; -/
theorem rhs_row (j : S2048x1024.Idx) (r : dot_S2048x1024_S1024x1024_S2048x1024_1_0_0_1_n_n.contr.Idx) :
    (dot_S2048x1024_S1024x1024_S2048x1024_1_0_0_1_n_n.rhsIdx j r 0).val = (r ⟨0, by decide⟩).val :=
  dot_S2048x1024_S1024x1024_S2048x1024_1_0_0_1_n_n.rhsIdx_val_of_single rfl j r

/-- its column the output's column. -/
theorem rhs_col (j : S2048x1024.Idx) (r : dot_S2048x1024_S1024x1024_S2048x1024_1_0_0_1_n_n.contr.Idx) :
    (dot_S2048x1024_S1024x1024_S2048x1024_1_0_0_1_n_n.rhsIdx j r 1).val = (j 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- One block product into the zero accumulator: row `p` of the left block against column `q` of the right. -/
theorem block_product {φ₁ φ₂ : FTy} (A : FVec Ideal S2048x1024 φ₁) (B : FVec Ideal S1024x1024 φ₂) (p : Fin 2048) (q : Fin 1024) :
    matmul (F := Ideal) dot_S2048x1024_S1024x1024_S2048x1024_1_0_0_1_n_n none A B (constant S2048x1024 .f32 0x00000000#32) (ix2 p q)
      = ∑ k : Fin 1024, A (ix2 p k) * B (ix2 k q) := by
  refine Cert.LibMatmulZero.matmul_zero_apply dot_S2048x1024_S1024x1024_S2048x1024_1_0_0_1_n_n 1024 rfl rfl A B (ix2 p q)
    (fun k => ix2 p k) (fun k => ix2 k q) (fun k a => ?_) (fun k a => ?_)
  · have hk := contrEquiv1_symm_val dot_S2048x1024_S1024x1024_S2048x1024_1_0_0_1_n_n 1024 rfl rfl k
    match a with
    | ⟨0, _⟩ => exact lhs_row _ _
    | ⟨1, _⟩ => exact (lhs_col _ _).trans hk
  · have hk := contrEquiv1_symm_val dot_S2048x1024_S1024x1024_S2048x1024_1_0_0_1_n_n 1024 rfl rfl k
    match a with
    | ⟨0, _⟩ => exact (rhs_row _ _).trans hk
    | ⟨1, _⟩ => exact rhs_col _ _

/-- The cleared accumulator is zero at every entry. -/
theorem cleared_apply (j : S2048x1024.Idx) : k0_pay1 (F := Ideal) j = 0 := by
  unfold k0_pay1
  simp only [shapeCast_self]
  show Ideal.ofBits .f32 0x00000000#32 = 0
  exact Ideal.ofBits_zero_f32

/-- The updated accumulator at `(p, q)`: the old entry plus the three partial products of this block. -/
theorem update_apply (x0 x1 : Vec Ideal S2048x1024 .bf16) (x2 x3 : Vec Ideal S1024x1024 .bf16) (acc : Vec Ideal S2048x1024 .f32)
    (p : Fin 2048) (q : Fin 1024) :
    k0_pay2 x0 x2 x3 x1 acc (ix2 p q)
      = acc (ix2 p q) + ((∑ k : Fin 1024, x0 (ix2 p k) * x2 (ix2 k q) + ∑ k : Fin 1024, x0 (ix2 p k) * x3 (ix2 k q))
          + ∑ k : Fin 1024, x1 (ix2 p k) * x2 (ix2 k q)) := by
  unfold k0_pay2
  simp only [shapeCast_self]
  show acc (ix2 p q) + ((matmul (F := Ideal) dot_S2048x1024_S1024x1024_S2048x1024_1_0_0_1_n_n none x0 x2 (constant S2048x1024 .f32 0x00000000#32) (ix2 p q)
      + matmul (F := Ideal) dot_S2048x1024_S1024x1024_S2048x1024_1_0_0_1_n_n none x0 x3 (constant S2048x1024 .f32 0x00000000#32) (ix2 p q))
      + matmul (F := Ideal) dot_S2048x1024_S1024x1024_S2048x1024_1_0_0_1_n_n none x1 x2 (constant S2048x1024 .f32 0x00000000#32) (ix2 p q)) = _
  rw [block_product x0 x2 p q, block_product x0 x3 p q, block_product x1 x2 p q]

end Cert.KernelIdeal.Payload

end
-- ==== Proof.BlockSum.lean ====
/-
  A contraction over 4096 positions taken in four blocks of 1024, with two vanishing correction terms per block.

  The kernel accumulates, block after block of the contracted axis, the sum of three partial products: the main one
  `∑ a·b` and two corrections `∑ a·b'` and `∑ a'·b`. When the correction factors `a'`, `b'` vanish (on the extended
  reals `x · 0 = 0 · x = 0` for EVERY `x`, infinite ones included), each block contributes its main product only, and the
  ordered chain `(((0 + P₀) + P₁) + P₂) + P₃` of the four blocks is the one sum over all 4096 positions: addition of
  extended reals is commutative and associative, so regrouping needs no finiteness.
-/
import Mathlib.Data.EReal.Basic
import Mathlib.Algebra.BigOperators.Fin
import Mathlib.Algebra.BigOperators.Ring.Finset

noncomputable section

namespace Cert.BlockSum

/-- Position `k` of block `q`. -/
abbrev pos (q : Fin 4) (k : Fin 1024) : Fin 4096 := ⟨1024 * q.val + k.val, by omega⟩

/-- A position is a block and a place in it. -/
def blockEquiv : Fin 4 × Fin 1024 ≃ Fin 4096 where
  toFun p := pos p.1 p.2
  invFun i := (⟨i.val / 1024, by omega⟩, ⟨i.val % 1024, Nat.mod_lt _ (by norm_num)⟩)
  left_inv p := by
    obtain ⟨⟨q, hq⟩, ⟨k, hk⟩⟩ := p
    refine Prod.ext (Fin.ext ?_) (Fin.ext ?_)
    · show (1024 * q + k) / 1024 = q; omega
    · show (1024 * q + k) % 1024 = k; omega
  right_inv i := by
    refine Fin.ext ?_
    show 1024 * (i.val / 1024) + i.val % 1024 = i.val
    omega

/-- A sum over all positions is the sum over the blocks of the sums inside each. -/
theorem sum_blocks {M : Type*} [AddCommMonoid M] (f : Fin 4096 → M) :
    ∑ i : Fin 4096, f i = ∑ q : Fin 4, ∑ k : Fin 1024, f (pos q k) := by
  rw [← blockEquiv.sum_comp, Fintype.sum_prod_type]
  rfl

/-- One block's contribution: the main product and the two corrections. -/
def part (a a' b b' : Fin 4096 → EReal) (q : Fin 4) : EReal :=
  (∑ k : Fin 1024, a (pos q k) * b (pos q k) + ∑ k : Fin 1024, a (pos q k) * b' (pos q k))
    + ∑ k : Fin 1024, a' (pos q k) * b (pos q k)

/-- With vanishing correction factors a block contributes its main product. -/
theorem part_eq (a a' b b' : Fin 4096 → EReal) (ha : ∀ i, a' i = 0) (hb : ∀ i, b' i = 0) (q : Fin 4) :
    part a a' b b' q = ∑ k : Fin 1024, a (pos q k) * b (pos q k) := by
  unfold part
  simp only [ha, hb, mul_zero, zero_mul, Finset.sum_const_zero, add_zero]

/-- The ordered chain of the four blocks from zero is the whole contraction. -/
theorem chain_eq (a a' b b' : Fin 4096 → EReal) (ha : ∀ i, a' i = 0) (hb : ∀ i, b' i = 0) :
    (((0 + part a a' b b' 0) + part a a' b b' 1) + part a a' b b' 2) + part a a' b b' 3
      = ∑ i : Fin 4096, a i * b i := by
  rw [sum_blocks (fun i => a i * b i), Fin.sum_univ_four, part_eq a a' b b' ha hb, part_eq a a' b b' ha hb,
    part_eq a a' b b' ha hb, part_eq a a' b b' ha hb, zero_add]

/-- The running sum after block `n`: from zero, one block's contribution after another, in order. -/
def upto (a a' b b' : Fin 4096 → EReal) : (n : ℕ) → n < 4 → EReal
  | 0, h => 0 + part a a' b b' ⟨0, h⟩
  | n + 1, h => upto a a' b b' n (Nat.lt_of_succ_lt h) + part a a' b b' ⟨n + 1, h⟩

theorem upto_first (a a' b b' : Fin 4096 → EReal) (k : ℕ) (hk : k < 4) (e : k = 0) :
    upto a a' b b' k hk = 0 + part a a' b b' ⟨k, hk⟩ := by
  subst e; rfl

theorem upto_next (a a' b b' : Fin 4096 → EReal) (k k' : ℕ) (hk : k < 4) (hk' : k' < 4) (e : k' = k + 1) :
    upto a a' b b' k' hk' = upto a a' b b' k hk + part a a' b b' ⟨k', hk'⟩ := by
  subst e; rfl

/-- After the last block the running sum is the whole contraction. -/
theorem upto_last (a a' b b' : Fin 4096 → EReal) (ha : ∀ i, a' i = 0) (hb : ∀ i, b' i = 0) (k : ℕ) (hk : k < 4)
    (e : k = 3) : upto a a' b b' k hk = ∑ i : Fin 4096, a i * b i := by
  subst e
  exact chain_eq a a' b b' ha hb

end Cert.BlockSum

end
-- ==== Proof.KerAccum.lean ====
/-
  The accumulator over the grid, as a running sum.

  The grid has 64 points `t`: row block `t / 16` of the activations, column block `(t / 4) % 4` of the weights, and
  block `t % 4` of the contracted axis, the last moving fastest. Entry `(p, q)` of the accumulator after point `t` is
  the running sum, over the contracted blocks `0 … t % 4` in order, of the three partial products of activation row
  `2048 · (t / 16) + p` against weight column `1024 · ((t / 4) % 4) + q`: the first block of each group of four starts from
  the cleared accumulator, every later block adds to what the point before left, and row and column do not change
  inside a group. By induction on the point, never by enumerating the grid.
-/
import proofs.«129023_j52596169507334_2_alg».proof.Proof.KerPieces
import proofs.«129023_j52596169507334_2_alg».proof.Proof.KerPayload
import proofs.«129023_j52596169507334_2_alg».proof.Proof.BlockSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.BlockSum

variable (m : (ℓ : Loc nD τ sig) → Buf (Elt Ideal) ℓ)

theorem N64 : cfg0.N = 64 := N_0

/-- Which block of each array a grid point works on: the printed index maps, decided once over the grid. -/
theorem block_of_point : ∀ t : Fin cfg0.N,
    win0_0.index t (0 : Fin 2) = t.val / 16 ∧ win0_0.index t (1 : Fin 2) = t.val % 4
    ∧ win0_1.index t (0 : Fin 2) = t.val / 16 ∧ win0_1.index t (1 : Fin 2) = t.val % 4
    ∧ win0_2.index t (0 : Fin 2) = t.val % 4 ∧ win0_2.index t (1 : Fin 2) = (t.val / 4) % 4
    ∧ win0_3.index t (0 : Fin 2) = t.val % 4 ∧ win0_3.index t (1 : Fin 2) = (t.val / 4) % 4
    ∧ win0_4.index t (0 : Fin 2) = t.val / 16 ∧ win0_4.index t (1 : Fin 2) = (t.val / 4) % 4 :=
  (by decide +kernel : ∀ t : Fin grid0.N, _)

/-- The activation row that row `p` of point `t`'s block is. -/
abbrev rowOf (t : Fin cfg0.N) (p : Fin 2048) : Fin 8192 :=
  ⟨2048 * (t.val / 16) + p.val, by have := t.isLt; have := N64; omega⟩

/-- The weight column that column `q` of point `t`'s block is. -/
abbrev colOf (t : Fin cfg0.N) (q : Fin 1024) : Fin 4096 :=
  ⟨1024 * ((t.val / 4) % 4) + q.val, by omega⟩

/-- The contracted block point `t` works on. -/
abbrev blkOf (t : Fin cfg0.N) : Fin 4 := ⟨t.val % 4, Nat.mod_lt _ (by norm_num)⟩

/-- Row `r` of the activations (main part, correction) and column `n` of the weights (main part, correction), as
    functions of the contracted position. -/
def actMain (c : Dev nD) (r : Fin 8192) : Fin 4096 → EReal := fun i => V m c main_v50 (ix2 r i)
def actCorr (c : Dev nD) (r : Fin 8192) : Fin 4096 → EReal := fun i => V m c main_v53 (ix2 r i)
def wtMain (c : Dev nD) (n : Fin 4096) : Fin 4096 → EReal := fun i => V m c main_v45 (ix2 i n)
def wtCorr (c : Dev nD) (n : Fin 4096) : Fin 4096 → EReal := fun i => V m c main_v48 (ix2 i n)

/-- The activations' block at a point, read in the whole array. -/
theorem actMain_blk (c : Dev nD) (t : Fin cfg0.N) (p : Fin 2048) (k : Fin 1024) :
    (iblk m c 0 t : Vec Ideal S2048x1024 .bf16) (ix2 p k) = actMain m c (rowOf t p) (pos (blkOf t) k) := by
  obtain ⟨e0, e1, -⟩ := block_of_point t
  unfold iblk actMain
  rw [View.read_apply]
  show V m c main_v50 _ = V m c main_v50 _
  congr 1
  funext a; apply Fin.ext
  match a with
  | ⟨0, _⟩ => show win0_0.index t (0 : Fin 2) * 2048 + 1 * p.val = 2048 * (t.val / 16) + p.val; rw [e0]; omega
  | ⟨1, _⟩ => show win0_0.index t (1 : Fin 2) * 1024 + 1 * k.val = 1024 * (t.val % 4) + k.val; rw [e1]; omega

theorem actCorr_blk (c : Dev nD) (t : Fin cfg0.N) (p : Fin 2048) (k : Fin 1024) :
    (iblk m c 1 t : Vec Ideal S2048x1024 .bf16) (ix2 p k) = actCorr m c (rowOf t p) (pos (blkOf t) k) := by
  obtain ⟨-, -, e0, e1, -⟩ := block_of_point t
  unfold iblk actCorr
  rw [View.read_apply]
  show V m c main_v53 _ = V m c main_v53 _
  congr 1
  funext a; apply Fin.ext
  match a with
  | ⟨0, _⟩ => show win0_1.index t (0 : Fin 2) * 2048 + 1 * p.val = 2048 * (t.val / 16) + p.val; rw [e0]; omega
  | ⟨1, _⟩ => show win0_1.index t (1 : Fin 2) * 1024 + 1 * k.val = 1024 * (t.val % 4) + k.val; rw [e1]; omega

/-- The weights' block at a point, read in the whole array. -/
theorem wtMain_blk (c : Dev nD) (t : Fin cfg0.N) (k : Fin 1024) (q : Fin 1024) :
    (iblk m c 2 t : Vec Ideal S1024x1024 .bf16) (ix2 k q) = wtMain m c (colOf t q) (pos (blkOf t) k) := by
  obtain ⟨-, -, -, -, e0, e1, -⟩ := block_of_point t
  unfold iblk wtMain
  rw [View.read_apply]
  show V m c main_v45 _ = V m c main_v45 _
  congr 1
  funext a; apply Fin.ext
  match a with
  | ⟨0, _⟩ => show win0_2.index t (0 : Fin 2) * 1024 + 1 * k.val = 1024 * (t.val % 4) + k.val; rw [e0]; omega
  | ⟨1, _⟩ => show win0_2.index t (1 : Fin 2) * 1024 + 1 * q.val = 1024 * ((t.val / 4) % 4) + q.val; rw [e1]; omega

theorem wtCorr_blk (c : Dev nD) (t : Fin cfg0.N) (k : Fin 1024) (q : Fin 1024) :
    (iblk m c 3 t : Vec Ideal S1024x1024 .bf16) (ix2 k q) = wtCorr m c (colOf t q) (pos (blkOf t) k) := by
  obtain ⟨-, -, -, -, -, -, e0, e1, -⟩ := block_of_point t
  unfold iblk wtCorr
  rw [View.read_apply]
  show V m c main_v48 _ = V m c main_v48 _
  congr 1
  funext a; apply Fin.ext
  match a with
  | ⟨0, _⟩ => show win0_3.index t (0 : Fin 2) * 1024 + 1 * k.val = 1024 * (t.val % 4) + k.val; rw [e0]; omega
  | ⟨1, _⟩ => show win0_3.index t (1 : Fin 2) * 1024 + 1 * q.val = 1024 * ((t.val / 4) % 4) + q.val; rw [e1]; omega

/-- One point's update of an accumulator `acc`, at entry `(p, q)`: the old entry plus this contracted block's part of
    the row-by-column contraction. -/
theorem step_apply (c : Dev nD) (t : Fin cfg0.N) (acc : Vec Ideal S2048x1024 .f32) (p : Fin 2048) (q : Fin 1024) :
    k0_pay2 (iblk m c 0 t) (iblk m c 2 t) (iblk m c 3 t) (iblk m c 1 t) acc (ix2 p q)
      = acc (ix2 p q) + part (actMain m c (rowOf t p)) (actCorr m c (rowOf t p)) (wtMain m c (colOf t q))
          (wtCorr m c (colOf t q)) (blkOf t) := by
  refine (Payload.update_apply (iblk m c 0 t) (iblk m c 1 t) (iblk m c 2 t) (iblk m c 3 t) acc p q).trans ?_
  unfold part
  simp only [actMain_blk, actCorr_blk, wtMain_blk, wtCorr_blk]

/-- After the first block of a group the accumulator is the cleared block updated once; -/
theorem acc_first (c : Dev nD) (t : Fin cfg0.N) (h0 : t.val % 4 = 0) (h1 : ¬t.val % 4 = 3) :
    (outsAt0 m c t.val t.isLt).2 = k0_pay2 (iblk m c 0 t) (iblk m c 2 t) (iblk m c 3 t) (iblk m c 1 t) (k0_pay1 (F := Ideal)) := by
  rw [outsAt0_A m c t h0 h1]
  dsimp only
  exact Pieces.scr_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- after a middle block, what the point before left updated once; -/
theorem acc_mid (c : Dev nD) (t : Fin cfg0.N) (h0 : ¬t.val % 4 = 0) (h1 : ¬t.val % 4 = 3) :
    (outsAt0 m c t.val t.isLt).2 = k0_pay2 (iblk m c 0 t) (iblk m c 2 t) (iblk m c 3 t) (iblk m c 1 t) (outsAt0 m c (t.val - 1) (Nat.lt_of_le_of_lt (Nat.sub_le _ _) t.isLt)).2 := by
  rw [outsAt0_B m c t h0 h1]
  dsimp only
  exact Pieces.scr_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- after the last block the same, -/
theorem acc_last (c : Dev nD) (t : Fin cfg0.N) (h0 : ¬t.val % 4 = 0) (h1 : t.val % 4 = 3) :
    (outsAt0 m c t.val t.isLt).2 = k0_pay2 (iblk m c 0 t) (iblk m c 2 t) (iblk m c 3 t) (iblk m c 1 t) (outsAt0 m c (t.val - 1) (Nat.lt_of_le_of_lt (Nat.sub_le _ _) t.isLt)).2 := by
  rw [outsAt0_C m c t h0 h1]
  dsimp only
  exact Pieces.scr_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and the output block is then the accumulator. -/
theorem out_last (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Pieces.scr_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- THE RUNNING SUM: entry `(p, q)` of the accumulator after point `n` is the ordered sum of the contracted blocks
    `0 … n % 4` of its row against its column. -/
theorem acc_eq (c : Dev nD) : ∀ (n : ℕ) (h : n < cfg0.N) (p : Fin 2048) (q : Fin 1024),
    (outsAt0 m c n h).2 (ix2 p q)
      = upto (actMain m c (rowOf ⟨n, h⟩ p)) (actCorr m c (rowOf ⟨n, h⟩ p)) (wtMain m c (colOf ⟨n, h⟩ q))
          (wtCorr m c (colOf ⟨n, h⟩ q)) (n % 4) (Nat.mod_lt _ (by norm_num))
  | 0, h, p, q => by
    have e : (outsAt0 m c 0 h).2 = _ := acc_first m c ⟨0, h⟩ rfl (by show ¬0 % 4 = 3; omega)
    rw [e, step_apply, Payload.cleared_apply]
    exact (upto_first _ _ _ _ _ _ rfl).symm
  | n + 1, h, p, q => by
    have hN := N64
    by_cases h0 : (n + 1) % 4 = 0
    · have e : (outsAt0 m c (n + 1) h).2 = _ := acc_first m c ⟨n + 1, h⟩ h0 (by show ¬(n + 1) % 4 = 3; omega)
      rw [e, step_apply, Payload.cleared_apply]
      exact (upto_first _ _ _ _ _ _ h0).symm
    · have e : (outsAt0 m c (n + 1) h).2
          = k0_pay2 (iblk m c 0 ⟨n + 1, h⟩) (iblk m c 2 ⟨n + 1, h⟩) (iblk m c 3 ⟨n + 1, h⟩) (iblk m c 1 ⟨n + 1, h⟩)
              (outsAt0 m c n (Nat.lt_of_succ_lt h)).2 := by
        by_cases h1 : (n + 1) % 4 = 3
        · exact acc_last m c ⟨n + 1, h⟩ h0 h1
        · exact acc_mid m c ⟨n + 1, h⟩ h0 h1
      rw [e, step_apply, acc_eq c n (Nat.lt_of_succ_lt h) p q]
      have er : rowOf ⟨n + 1, h⟩ p = rowOf ⟨n, Nat.lt_of_succ_lt h⟩ p :=
        Fin.ext (by show 2048 * ((n + 1) / 16) + p.val = 2048 * (n / 16) + p.val; omega)
      have ec : colOf ⟨n + 1, h⟩ q = colOf ⟨n, Nat.lt_of_succ_lt h⟩ q :=
        Fin.ext (by show 1024 * (((n + 1) / 4) % 4) + q.val = 1024 * ((n / 4) % 4) + q.val; omega)
      rw [er, ec]
      exact (upto_next _ _ _ _ (n % 4) ((n + 1) % 4) _ _ (by omega)).symm

/-- THE OUTPUT BLOCK a last point writes back: when the two correction arrays vanish, entry `(p, q)` is the whole
    contraction of the activation row against the weight column. -/
theorem out_block (c : Dev nD) (hA : ∀ r i, actCorr m c r i = 0) (hB : ∀ n i, wtCorr m c n i = 0)
    (t : Fin cfg0.N) (h1 : t.val % 4 = 3) (p : Fin 2048) (q : Fin 1024) :
    (outsAt0 m c t.val t.isLt).1 (ix2 p q)
      = ∑ i : Fin 4096, actMain m c (rowOf t p) i * wtMain m c (colOf t q) i := by
  rw [out_last m c t (by omega) h1, acc_eq m c t.val t.isLt p q]
  exact upto_last _ _ _ _ (hA _) (hB _) _ _ h1

end Cert.KernelIdeal.Accum

end
-- ==== Proof.KerResult.lean ====
/-
  The region's output array: the product of the activations with the weights.

  Every fourth grid point (`t % 4 = 3`) writes its output block back: block `(t / 16, (t / 4) % 4)` of the
  `[8192, 4096]` array, 2048 rows by 1024 columns. When the two correction arrays vanish that block is the block of the
  product matrix `∑ᵢ A[r, i] · B[i, n]`; the sixteen row-and-column blocks tile the array (row `r`, column `n` lie in
  the block of the point `16 · (r / 2048) + 4 · (n / 1024) + 3`), so after the region the array IS the product.
-/
import proofs.«129023_j52596169507334_2_alg».proof.Proof.KerAccum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen Cert.KernelIdeal.Accum

variable (m : (ℓ : Loc nD τ sig) → Buf (Elt Ideal) ℓ)

/-- The product matrix of the main activations with the main weights. -/
def prod (c : Dev nD) : S8192x4096.Idx → EReal := fun j =>
  ∑ i : Fin 4096, actMain m c ⟨(j 0).val, idx2_lt0 j⟩ i * wtMain m c ⟨(j 1).val, idx2_lt1 j⟩ i

/-- WHAT A LAST POINT WRITES BACK is its block of the product. -/
theorem flushed_eq (c : Dev nD) (hA : ∀ r i, actCorr m c r i = 0) (hB : ∀ n i, wtCorr m c n i = 0)
    (t : Fin cfg0.N) (hf : (cfg0.win 4).flush t = true) :
    (dats m 0 c).flushed 4 t = ((cfg0.win 4).blk t).view.read (Elt Ideal) (prod m c) := by
  have h3 : t.val % 4 = 3 := (flush0_4 t).mp hf
  obtain ⟨-, -, -, -, -, -, -, -, e0, e1⟩ := block_of_point t
  show (cfg0.win 4).cut (grid0.coords t) ((dats m 0 c).after 4 t) = _
  rw [after0_4]
  have key : ∀ j : S2048x1024.Idx,
      (outsAt0 m c t.val t.isLt).1 j = prod m c (((cfg0.win 4).blk t).view.emb j) := by
    intro j
    obtain ⟨p, q, rfl⟩ : ∃ (p : Fin 2048) (q : Fin 1024), j = ix2 p q := ⟨j 0, j 1, eq_ix2 j⟩
    rw [out_block m c hA hB t h3 p q]
    unfold prod
    have er : (⟨((((cfg0.win 4).blk t).view.emb (ix2 p q)) 0).val, idx2_lt0 _⟩ : Fin 8192) = rowOf t p :=
      Fin.ext (by show win0_4.index t (0 : Fin 2) * 2048 + 1 * p.val = 2048 * (t.val / 16) + p.val; rw [e0]; omega)
    have ec : (⟨((((cfg0.win 4).blk t).view.emb (ix2 p q)) 1).val, idx2_lt1 _⟩ : Fin 4096) = colOf t q :=
      Fin.ext (by show win0_4.index t (1 : Fin 2) * 1024 + 1 * q.val = 1024 * ((t.val / 4) % 4) + q.val; rw [e1]; omega)
    rw [er, ec]
  exact funext key

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v54).slice (win0_4.rect t)).set ↔ _
  rw [View.set_slice_whole, Rect.mem_set_unit]
  exact Iff.rfl

/-- Every entry of the array lies in the block some last point writes back. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN := N64
  have ht : 16 * ((i 0).val / 2048) + 4 * ((i 1).val / 1024) + 3 < cfg0.N := by omega
  obtain ⟨-, -, -, -, -, -, -, -, e0, e1⟩ := block_of_point ⟨16 * ((i 0).val / 2048) + 4 * ((i 1).val / 1024) + 3, ht⟩
  refine ⟨⟨16 * ((i 0).val / 2048) + 4 * ((i 1).val / 1024) + 3, ht⟩, (flush0_4 _).mpr (by
    show (16 * ((i 0).val / 2048) + 4 * ((i 1).val / 1024) + 3) % 4 = 3; omega), ?_⟩
  rw [mem_blk]
  intro a
  match a with
  | ⟨0, _⟩ =>
    show win0_4.index _ (0 : Fin 2) * 2048 ≤ (i 0).val ∧ (i 0).val < win0_4.index _ (0 : Fin 2) * 2048 + 2048
    rw [e0]
    show (16 * ((i 0).val / 2048) + 4 * ((i 1).val / 1024) + 3) / 16 * 2048 ≤ (i 0).val
      ∧ (i 0).val < (16 * ((i 0).val / 2048) + 4 * ((i 1).val / 1024) + 3) / 16 * 2048 + 2048
    omega
  | ⟨1, _⟩ =>
    show win0_4.index _ (1 : Fin 2) * 1024 ≤ (i 1).val ∧ (i 1).val < win0_4.index _ (1 : Fin 2) * 1024 + 1024
    rw [e1]
    show (16 * ((i 0).val / 2048) + 4 * ((i 1).val / 1024) + 3) / 4 % 4 * 1024 ≤ (i 1).val
      ∧ (i 1).val < (16 * ((i 0).val / 2048) + 4 * ((i 1).val / 1024) + 3) / 4 % 4 * 1024 + 1024
    omega

/-- THE ARRAY after the region is the product. -/
theorem final (c : Dev nD) (hA : ∀ r i, actCorr m c r i = 0) (hB : ∀ n i, wtCorr m c n i = 0) :
    (dats m 0 c).arrAt 4 cfg0.N = prod m c :=
  (dats m 0 c).arrAt_eq_of_cover 4 (prod m c) (fun t hf => flushed_eq m c hA hB t hf) (covered)

end Cert.KernelIdeal.Product

end
-- ==== Proof.KerHostTerms.lean ====
/-
  The dequantized weight matrix and the two-part split of both operands, as the host operations before the matrix
  product compose them.

  Three arrays are named as functions of the argument arrays and never opened: the main codebook sum (two table
  look-ups added), the outlier codebook rows (one table look-up) and the index words of the sorting permutation
  (a negative word shifted up by the table's length). From them the stored weight table is the outlier rows
  (transposed and flattened to 128 rows) stacked on the main rows (transposed and flattened to 3968 rows), each row
  scaled and shifted by its own scale and bias; the weight matrix is that table with its rows taken in the order the
  index words name. Each operand of the matrix product is split into the value rounded to the short format and the
  difference between the value and that rounding.
-/
import proofs.«129023_j52596169507334_2_alg».proof.Proof.Gen.KernelIdeal
import Idealize.ShloMosaic.Lib.StableHlo.Run

noncomputable section

namespace Cert.KerHost

open Cert.KernelIdeal Cert.KernelIdeal.Facts₀ Idealize.ShloMosaic Idealize.ShloMosaic.TcCoe Idealize.SL.Sem
  Idealize.ShloMosaic.StableHlo

variable {F : FTy → Type} [FloatOps F]

/-- The main codebook sum: the first table at the first index words plus the second table at the second index words,
    a negative index word first shifted up by its table's length. -/
def mainSum (x1 : (⟨S1x32768, .f32⟩ : BufTy).Contents (Elt F)) (x2 : (⟨S1x2048, .f32⟩ : BufTy).Contents (Elt F))
    (x6 x7 : (⟨S1x512x3968, .i32⟩ : BufTy).Contents (Elt F)) : (⟨S1x512x3968x8, .f32⟩ : BufTy).Contents (Elt F) :=
  addf
    (Host.gather gather_S1x4096x8_S1x512x3968x1_S1x512x3968x8_3_1_0_0_1_3_118
      (shapeCast _ x1 shapeCasts_S1x32768_S1x4096x8)
      (broadcastInDim S1x512x3968x1 ![0, 1, 2] bcast_S1x512x3968_S1x512x3968x1_0_1_2
        (select (cmpi .slt x6 (broadcastInDim S1x512x3968 ![] bcast_S_S1x512x3968 (constantI S_ 32 0#32)))
          (addi x6 (broadcastInDim S1x512x3968 ![] bcast_S_S1x512x3968 (constantI S_ 32 4096#32))) x6)))
    (Host.gather gather_S1x256x8_S1x512x3968x1_S1x512x3968x8_3_1_0_0_1_3_118
      (shapeCast _ x2 shapeCasts_S1x2048_S1x256x8)
      (broadcastInDim S1x512x3968x1 ![0, 1, 2] bcast_S1x512x3968_S1x512x3968x1_0_1_2
        (select (cmpi .slt x7 (broadcastInDim S1x512x3968 ![] bcast_S_S1x512x3968 (constantI S_ 32 0#32)))
          (addi x7 (broadcastInDim S1x512x3968 ![] bcast_S_S1x512x3968 (constantI S_ 32 256#32))) x7)))

/-- The outlier codebook rows: the outlier table at the outlier index words, a negative word shifted up by 256. -/
def outlRows (x3 : (⟨S1x1024, .f32⟩ : BufTy).Contents (Elt F)) (x8 : (⟨S1x1024x128, .i32⟩ : BufTy).Contents (Elt F)) :
    (⟨S1024x128x4, .f32⟩ : BufTy).Contents (Elt F) :=
  Host.gather gather_S256x4_S1024x128x1_S1024x128x4_2_0_n_n_0_2_14
    (shapeCast _ x3 shapeCasts_S1x1024_S256x4)
    (broadcastInDim S1024x128x1 ![0, 1] bcast_S1024x128_S1024x128x1_0_1
      (select
        (cmpi .slt (shapeCast _ x8 shapeCasts_S1x1024x128_S1024x128)
          (broadcastInDim S1024x128 ![] bcast_S_S1024x128 (constantI S_ 32 0#32)))
        (addi (shapeCast _ x8 shapeCasts_S1x1024x128_S1024x128)
          (broadcastInDim S1024x128 ![] bcast_S_S1024x128 (constantI S_ 32 256#32)))
        (shapeCast _ x8 shapeCasts_S1x1024x128_S1024x128)))

/-- The index words of the permutation that sorts the stored order: the second component of the stable sort of the
    order words paired with their positions, a negative word shifted up by 4096. -/
def selWords (x9 : (⟨S4096, .i32⟩ : BufTy).Contents (Elt F)) : (⟨S4096, .i32⟩ : BufTy).Contents (Elt F) :=
  select
    (cmpi .slt (Host.sort2 S4096 0 comparator_i32_i32_d0 x9 (iotaInDim S4096 32 0)).2
      (broadcastInDim S4096 ![] bcast_S_S4096 (constantI S_ 32 0#32)))
    (addi (Host.sort2 S4096 0 comparator_i32_i32_d0 x9 (iotaInDim S4096 32 0)).2
      (broadcastInDim S4096 ![] bcast_S_S4096 (constantI S_ 32 4096#32)))
    (Host.sort2 S4096 0 comparator_i32_i32_d0 x9 (iotaInDim S4096 32 0)).2

/-- The stored weight table: the outlier rows stacked on the main rows, row `r` scaled by `sc r` and shifted by `bi r`. -/
def table (M : (⟨S1x512x3968x8, .f32⟩ : BufTy).Contents (Elt F)) (O : (⟨S1024x128x4, .f32⟩ : BufTy).Contents (Elt F))
    (sc bi : (⟨S4096, .f32⟩ : BufTy).Contents (Elt F)) : (⟨S4096x4096, .f32⟩ : BufTy).Contents (Elt F) :=
  addf
    (mulf
      (concatenate S4096x4096 0
        [⟨S128x4096, shapeCast _ (transpose S128x1024x4 [1, 0, 2] O transposes_S1024x128x4_S128x1024x4_1_0_2)
            shapeCasts_S128x1024x4_S128x4096⟩,
          ⟨S3968x4096, shapeCast _ (transpose S1x3968x512x8 [0, 2, 1, 3] M transposes_S1x512x3968x8_S1x3968x512x8_0_2_1_3)
            shapeCasts_S1x3968x512x8_S3968x4096⟩]
        concatenates_S128x4096_S3968x4096_S4096x4096_d0)
      (broadcastInDim S4096x4096 ![0, 1] bcast_S4096x1_S4096x4096_0_1
        (broadcastInDim S4096x1 ![0] bcast_S4096_S4096x1_0 sc)))
    (broadcastInDim S4096x4096 ![0, 1] bcast_S4096x1_S4096x4096_0_1
      (broadcastInDim S4096x1 ![0] bcast_S4096_S4096x1_0 bi))

/-- The weight matrix: the stored table with row `i` taken from the row the index word at `i` names. -/
def rows (M : (⟨S1x512x3968x8, .f32⟩ : BufTy).Contents (Elt F)) (O : (⟨S1024x128x4, .f32⟩ : BufTy).Contents (Elt F))
    (sc bi : (⟨S4096, .f32⟩ : BufTy).Contents (Elt F)) (sel : (⟨S4096, .i32⟩ : BufTy).Contents (Elt F)) :
    (⟨S4096x4096, .f32⟩ : BufTy).Contents (Elt F) :=
  Host.gather gather_S4096x4096_S4096x1_S4096x4096_1_0_n_n_0_1_14096 (table M O sc bi)
    (broadcastInDim S4096x1 ![0] bcast_S4096_S4096x1_0 sel)

variable (m : (ℓ : Loc nD τ sig) → Buf (Elt F) ℓ) (c : Dev nD)

/-- The weight matrix of the argument arrays. -/
def wArr : (⟨S4096x4096, .f32⟩ : BufTy).Contents (Elt F) :=
  rows
    (mainSum (m ((c.tc : Thread nD τ).loc main_arg1)) (m ((c.tc : Thread nD τ).loc main_arg2))
      (m ((c.tc : Thread nD τ).loc main_arg6)) (m ((c.tc : Thread nD τ).loc main_arg7)))
    (outlRows (m ((c.tc : Thread nD τ).loc main_arg3)) (m ((c.tc : Thread nD τ).loc main_arg8)))
    (m ((c.tc : Thread nD τ).loc main_arg4)) (m ((c.tc : Thread nD τ).loc main_arg5))
    (selWords (m ((c.tc : Thread nD τ).loc main_arg9)))

/-- The activations as a matrix of 8192 rows. -/
def xArr : (⟨S8192x4096, .f32⟩ : BufTy).Contents (Elt F) :=
  shapeCast _ (m ((c.tc : Thread nD τ).loc main_arg0)) shapeCasts_S2x4096x4096_S8192x4096

end Cert.KerHost

end
-- ==== Proof.KerHostFound.lean ====
/-
  What the matrix product finds in its four operand arrays: the host operations before it, composed.

  The activations, viewed as a matrix of 8192 rows, rounded to the short format, and what that rounding left out;
  the weight matrix rounded to the short format, and what that rounding left out. Each is the composed term of the
  operations that wrote the buffer, over the argument arrays as launched.
-/
import proofs.«129023_j52596169507334_2_alg».proof.Proof.Gen.KernelIdeal.Frame.Runs
import proofs.«129023_j52596169507334_2_alg».proof.Proof.KerHostTerms

noncomputable section

namespace Cert.KerHost

open Cert.KernelIdeal Cert.KernelIdeal.Facts₀ Idealize.ShloMosaic Idealize.ShloMosaic.TcCoe Idealize.SL.Sem
  Idealize.ShloMosaic.StableHlo

variable {F : FTy → Type} [FloatOps F]
variable (m : (ℓ : Loc nD τ sig) → Buf (Elt F) ℓ) (c : Dev nD)

/-- The first operand of the product: the activations, rounded to the short format. -/
theorem V_xHi : (Gen.V m c main_v50 : (⟨S8192x4096, .bf16⟩ : BufTy).Contents (Elt F))
    = truncf .bf16 (xArr m c) bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

/-- The second operand: what the rounding of the activations left out. -/
theorem V_xLo : (Gen.V m c main_v53 : (⟨S8192x4096, .bf16⟩ : BufTy).Contents (Elt F))
    = truncf .bf16 (subf (xArr m c) (extf .f32 (truncf .bf16 (xArr m c) bitsLt_bf16_f32) bitsLt_bf16_f32))
        bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

/-- The third operand: the weight matrix, rounded to the short format. -/
theorem V_wHi : (Gen.V m c main_v45 : (⟨S4096x4096, .bf16⟩ : BufTy).Contents (Elt F))
    = truncf .bf16 (wArr m c) bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

/-- The fourth operand: what the rounding of the weight matrix left out. -/
theorem V_wLo : (Gen.V m c main_v48 : (⟨S4096x4096, .bf16⟩ : BufTy).Contents (Elt F))
    = truncf .bf16 (subf (wArr m c) (extf .f32 (truncf .bf16 (wArr m c) bitsLt_bf16_f32) bitsLt_bf16_f32))
        bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  rfl

end Cert.KerHost

end
-- ==== Proof.LibGatherAxis0.lean ====
/-
  `stablehlo.gather` along axis 0 at one column of start indices, read at an index.

  What `x[idx]` lowers to when `idx : [E]` is viewed as `[E, 1]` (index_vector_dim 1): for a flat table
  `x : [N]` the result `[E]` (no offset axis), for a table of rows `x : [N, D]` the result `[E, D]`
  (offset axis 1, whole rows: slice sizes `[1, D]`). In both, result entry `e` (and column `k`) is the table at
  the row `idx[e, 0]` read as a signed integer and clamped into `[0, N - 1]` (and at column `k`).
-/
import Idealize.ShloMosaic.Lib.ValueIdx

noncomputable section

namespace Idealize.ShloMosaic.GatherAxis0

open Idealize.ShloMosaic Idealize.ShloMosaic.ValueIdx

variable {α : Type}

/-- The row of a table of `n` rows a start index reads: the word read signed, clamped into `[0, n - 1]`. -/
def row {w : Nat} (n : Nat) (hn : 0 < n) (x : BitVec w) : Fin n := ⟨min x.toInt.toNat (n - 1), by omega⟩

/-- The start-indices index `[e, 0]` of the result's row `e`. -/
abbrev colIdx {E : Nat} (e : Fin E) : (⟨2, ![E, 1]⟩ : Shape).Idx := ix2 e (⟨0, Nat.one_pos⟩ : Fin 1)

/-- The dimension numbers of a flat table `[N]` gathered at start indices `[E, 1]` into `[E]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into `[0, N - 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 (row N hN (idx (colIdx (y 0))))) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = colIdx (y 0) := by
    funext b; refine Fin.ext ?_
    match b with
    | ⟨0, _⟩ => rfl
    | ⟨1, _⟩ => rfl
  rw [hsi]
  rfl

/-- The dimension numbers of a table of rows `[N, D]` gathered whole-row at start indices `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the table at the row `idx[e, 0]`, read signed and clamped into `[0, N - 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (row N hN (idx (colIdx e))) k) := by
  unfold Host.gather
  congr 1
  funext a
  refine Fin.ext ?_
  match a with
  | ⟨0, _⟩ =>
    show (rowDims N D E wf).start (ix2 e k) idx 0 + (rowDims N D E wf).batchCoord (ix2 e k) 0
      + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
      + (rowDims N D E wf).offCoord (ix2 e k) 1 = k.val
    rw [GatherDims.batchCoord_eq_zero _ _ _ List.not_mem_nil]
    unfold GatherDims.start
    rw [dif_neg (show (1 : Fin 2) ∉ (rowDims N D E wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N D E wf).sKept from
      (GatherDims.mem_sKept _ _).mpr ⟨fun h => absurd (List.mem_singleton.mp h) (show ¬ (1 : Fin 2) = 0 by decide), List.not_mem_nil⟩)]
    rfl

end Idealize.ShloMosaic.GatherAxis0

end
-- ==== Proof.Weights.lean ====
/-
  The dequantized weight matrix and the linear map both programs compute, as functions of the argument arrays.

  The main codebook sum `M[0, r, g, v]` (row block `r < 512`, group column `g < 3968`, lane `v < 8`) and the outlier
  codebook rows `O[r, g, v]` (`r < 1024`, `g < 128`, `v < 4`) are laid out as one matrix indexed by an input feature
  `i < 4096` and an output feature `o < 4096`: the first 128 input features take the outlier entry
  `O[o / 4, i, o % 4]`, the others the main entry `M[0, o / 8, i - 128, o % 8]`; each input feature is then scaled and
  shifted by its own `scale i`, `bias i`. The stored order of the input features is undone by reading feature
  `src sel i` in place of `i`, where `sel` is the sorting permutation's index word (read signed and clamped into the
  table). The result is the contraction of the activations with that matrix over the input features.
-/
import Idealize.ShloMosaic.PureOps.Ideal
import Idealize.ShloMosaic.Lib.ValueIdx
import proofs.«129023_j52596169507334_2_alg».proof.Proof.LibGatherAxis0

noncomputable section

namespace Cert.Weights

open Idealize.ShloMosaic Idealize.ShloMosaic.ValueIdx

/-- The main codebook sum, `[1, 512, 3968, 8]`. -/
abbrev SMain : Shape := ⟨4, ![1, 512, 3968, 8]⟩
/-- The outlier codebook rows, `[1024, 128, 4]`. -/
abbrev SOutl : Shape := ⟨3, ![1024, 128, 4]⟩
/-- A per-feature vector, `[4096]`. -/
abbrev SVec : Shape := ⟨1, ![4096]⟩
/-- The activations and the result, `[2, 4096, 4096]`. -/
abbrev SAct : Shape := ⟨3, ![2, 4096, 4096]⟩

/-- The weight of stored input feature `i` towards output feature `o`, before the stored order is undone. -/
def entry (M : SMain.Idx → EReal) (O : SOutl.Idx → EReal) (sc bi : SVec.Idx → EReal) (i o : Fin 4096) : EReal :=
  (if h : i.val < 128 then
      O (ix3 (⟨o.val / 4, by omega⟩ : Fin 1024) (⟨i.val, h⟩ : Fin 128) (⟨o.val % 4, by omega⟩ : Fin 4))
    else
      M (ix4 (⟨0, Nat.one_pos⟩ : Fin 1) (⟨o.val / 8, by omega⟩ : Fin 512) (⟨i.val - 128, by omega⟩ : Fin 3968)
        (⟨o.val % 8, by omega⟩ : Fin 8)))
    * sc (ix1 i) + bi (ix1 i)

/-- The stored input feature that input feature `i` reads: the index word at `i`, signed, clamped into `[0, 4095]`. -/
def src (sel : SVec.Idx → BitVec 32) (i : Fin 4096) : Fin 4096 :=
  GatherAxis0.row 4096 (by norm_num) (sel (ix1 i))

/-- The weight of input feature `i` towards output feature `o`. -/
def weight (M : SMain.Idx → EReal) (O : SOutl.Idx → EReal) (sc bi : SVec.Idx → EReal) (sel : SVec.Idx → BitVec 32)
    (i o : Fin 4096) : EReal :=
  entry M O sc bi (src sel i) o

/-- The linear map: batch `b`, position `s`, output feature `o`. -/
def result (x : SAct.Idx → EReal) (M : SMain.Idx → EReal) (O : SOutl.Idx → EReal) (sc bi : SVec.Idx → EReal)
    (sel : SVec.Idx → BitVec 32) (b : Fin 2) (s o : Fin 4096) : EReal :=
  ∑ i : Fin 4096, x (ix3 b s i) * weight M O sc bi sel i o

end Cert.Weights

end
-- ==== Proof.KerWeight.lean ====
/-
  The weight matrix read at one input feature and one output feature.

  Row `i` of the weight matrix is row `src sel i` of the stored table (the row the index word at `i` names, read
  signed and clamped into the table). Row `r` of the stored table is scaled by `sc r` and shifted by `bi r`; for
  `r < 128` it is outlier row `r`, whose entry at output feature `o` is `O[o / 4, r, o % 4]` (the rows were transposed to
  `[128, 1024, 4]` and flattened, so position `o` of a row is block `o / 4`, lane `o % 4`); for `r ≥ 128` it is main row
  `r - 128`, whose entry at `o` is `M[0, o / 8, r - 128, o % 8]` (transposed to `[1, 3968, 512, 8]` and flattened: block
  `o / 8`, lane `o % 8`).
-/
import proofs.«129023_j52596169507334_2_alg».proof.Proof.KerHostTerms
import proofs.«129023_j52596169507334_2_alg».proof.Proof.Weights
import Idealize.ShloMosaic.Lib.Pipeline.Value

noncomputable section

namespace Cert.KerHost

open Cert.KernelIdeal Cert.KernelIdeal.Facts₀ Idealize.ShloMosaic Idealize.ShloMosaic.ValueIdx

variable {α : Type}

/-- A per-row vector spread over the columns: entry `(r, o)` is the vector at `r`. -/
theorem perRow_apply (x : S4096.Idx → α) (r o : Fin 4096) :
    broadcastInDim S4096x4096 ![0, 1] bcast_S4096x1_S4096x4096_0_1
        (broadcastInDim S4096x1 ![0] bcast_S4096_S4096x1_0 x) (ix2 r o) = x (ix1 r) := by
  refine (broadcastInDim_apply _ bcast_S4096x1_S4096x4096_0_1 _ (ix2 r o) (ix2 r (⟨0, Nat.one_pos⟩ : Fin 1))
    (fun a => ?_)).trans ?_
  · match a with
    | ⟨0, _⟩ => show r.val = if (4096 : Nat) = 1 then 0 else r.val; rw [if_neg (by decide)]
    | ⟨1, _⟩ => show 0 = if (1 : Nat) = 1 then 0 else o.val; rw [if_pos rfl]
  · exact broadcastInDim_apply _ bcast_S4096_S4096x1_0 x _ (ix1 r) (fun a => match a with
      | ⟨0, _⟩ => by show r.val = if (4096 : Nat) = 1 then 0 else r.val; rw [if_neg (by decide)])

/-- A vector viewed as one column: entry `(i, 0)` is the vector at `i`. -/
theorem column_apply (x : S4096.Idx → α) (i : Fin 4096) :
    broadcastInDim S4096x1 ![0] bcast_S4096_S4096x1_0 x (GatherAxis0.colIdx i) = x (ix1 i) :=
  broadcastInDim_apply _ bcast_S4096_S4096x1_0 x _ (ix1 i) (fun a => match a with
    | ⟨0, _⟩ => by show i.val = if (4096 : Nat) = 1 then 0 else i.val; rw [if_neg (by decide)])

/-- The outlier rows, transposed and flattened, at row `r` and position `o`: block `o / 4`, lane `o % 4`. -/
theorem outlPiece_apply (O : S1024x128x4.Idx → α) (r : Fin 128) (o : Fin 4096) :
    shapeCast S128x4096 (transpose S128x1024x4 [1, 0, 2] O transposes_S1024x128x4_S128x1024x4_1_0_2)
        shapeCasts_S128x1024x4_S128x4096 (ix2 r o)
      = O (ix3 (⟨o.val / 4, by omega⟩ : Fin 1024) r (⟨o.val % 4, by omega⟩ : Fin 4)) := by
  refine (shapeCast_apply _ shapeCasts_S128x1024x4_S128x4096 (ix2 r o)
    (ix3 r (⟨o.val / 4, by omega⟩ : Fin 1024) (⟨o.val % 4, by omega⟩ : Fin 4)) ?_).trans ?_
  · rw [Shape.rowMajor_val_three, Shape.rowMajor_val_two]
    show (r.val * 1024 + o.val / 4) * 4 + o.val % 4 = r.val * 4096 + o.val
    omega
  · exact transpose_apply [1, 0, 2] O transposes_S1024x128x4_S128x1024x4_1_0_2 _
      (ix3 (⟨o.val / 4, by omega⟩ : Fin 1024) r (⟨o.val % 4, by omega⟩ : Fin 4))
      (fun b => match b with | ⟨0, _⟩ => rfl | ⟨1, _⟩ => rfl | ⟨2, _⟩ => rfl)

/-- The main rows, transposed and flattened, at row `r` and position `o`: block `o / 8`, lane `o % 8`. -/
theorem mainPiece_apply (M : S1x512x3968x8.Idx → α) (r : Fin 3968) (o : Fin 4096) :
    shapeCast S3968x4096 (transpose S1x3968x512x8 [0, 2, 1, 3] M transposes_S1x512x3968x8_S1x3968x512x8_0_2_1_3)
        shapeCasts_S1x3968x512x8_S3968x4096 (ix2 r o)
      = M (ix4 (⟨0, Nat.one_pos⟩ : Fin 1) (⟨o.val / 8, by omega⟩ : Fin 512) r (⟨o.val % 8, by omega⟩ : Fin 8)) := by
  refine (shapeCast_apply _ shapeCasts_S1x3968x512x8_S3968x4096 (ix2 r o)
    (ix4 (⟨0, Nat.one_pos⟩ : Fin 1) r (⟨o.val / 8, by omega⟩ : Fin 512) (⟨o.val % 8, by omega⟩ : Fin 8)) ?_).trans ?_
  · rw [Shape.rowMajor_val_four, Shape.rowMajor_val_two]
    show ((0 * 3968 + r.val) * 512 + o.val / 8) * 8 + o.val % 8 = r.val * 4096 + o.val
    omega
  · exact transpose_apply [0, 2, 1, 3] M transposes_S1x512x3968x8_S1x3968x512x8_0_2_1_3 _
      (ix4 (⟨0, Nat.one_pos⟩ : Fin 1) (⟨o.val / 8, by omega⟩ : Fin 512) r (⟨o.val % 8, by omega⟩ : Fin 8))
      (fun b => match b with | ⟨0, _⟩ => rfl | ⟨1, _⟩ => rfl | ⟨2, _⟩ => rfl | ⟨3, _⟩ => rfl)

/-- The stack of the two pieces at a row below 128: the first piece at that row. -/
theorem stack_apply_lo (A : S128x4096.Idx → α) (B : S3968x4096.Idx → α) (r o : Fin 4096) (h : r.val < 128) :
    concatenate S4096x4096 0 [⟨S128x4096, A⟩, ⟨S3968x4096, B⟩] concatenates_S128x4096_S3968x4096_S4096x4096_d0 (ix2 r o)
      = A (ix2 (⟨r.val, h⟩ : Fin 128) o) :=
  concatenate_pair_apply_left 0 A B concatenates_S128x4096_S3968x4096_S4096x4096_d0 (ix2 r o) rfl
    (ix2 (⟨r.val, h⟩ : Fin 128) o) (fun b => match b with | ⟨0, _⟩ => rfl | ⟨1, _⟩ => rfl)

/-- The stack at a row from 128 on: the second piece, 128 rows up. -/
theorem stack_apply_hi (A : S128x4096.Idx → α) (B : S3968x4096.Idx → α) (r o : Fin 4096) (h : 128 ≤ r.val) :
    concatenate S4096x4096 0 [⟨S128x4096, A⟩, ⟨S3968x4096, B⟩] concatenates_S128x4096_S3968x4096_S4096x4096_d0 (ix2 r o)
      = B (ix2 (⟨r.val - 128, by omega⟩ : Fin 3968) o) :=
  concatenate_pair_apply_right 0 A B concatenates_S128x4096_S3968x4096_S4096x4096_d0 (ix2 r o) rfl rfl
    (ix2 (⟨r.val - 128, by omega⟩ : Fin 3968) o)
    (fun b hb => match b, hb with | ⟨0, _⟩, hb => absurd rfl hb | ⟨1, _⟩, _ => rfl)
    (by show r.val - 128 + 128 = r.val; omega)

/-- THE STORED TABLE AT `(r, o)`. -/
theorem table_apply (M : (⟨S1x512x3968x8, .f32⟩ : BufTy).Contents (Elt Ideal))
    (O : (⟨S1024x128x4, .f32⟩ : BufTy).Contents (Elt Ideal)) (sc bi : (⟨S4096, .f32⟩ : BufTy).Contents (Elt Ideal))
    (r o : Fin 4096) :
    table (F := Ideal) M O sc bi (ix2 r o) = Cert.Weights.entry M O sc bi r o := by
  unfold table Cert.Weights.entry
  rw [addf_apply, mulf_apply, perRow_apply, perRow_apply]
  by_cases h : r.val < 128
  · rw [dif_pos h, stack_apply_lo _ _ r o h, outlPiece_apply]
  · rw [dif_neg h, stack_apply_hi _ _ r o (by omega), mainPiece_apply]

/-- THE WEIGHT MATRIX AT `(i, o)`. -/
theorem rows_apply (M : (⟨S1x512x3968x8, .f32⟩ : BufTy).Contents (Elt Ideal))
    (O : (⟨S1024x128x4, .f32⟩ : BufTy).Contents (Elt Ideal)) (sc bi : (⟨S4096, .f32⟩ : BufTy).Contents (Elt Ideal))
    (sel : (⟨S4096, .i32⟩ : BufTy).Contents (Elt Ideal)) (i o : Fin 4096) :
    rows (F := Ideal) M O sc bi sel (ix2 i o) = Cert.Weights.weight M O sc bi sel i o := by
  unfold rows Cert.Weights.weight Cert.Weights.src
  rw [show gather_S4096x4096_S4096x1_S4096x4096_1_0_n_n_0_1_14096
      = GatherAxis0.rowDims 4096 4096 4096 gather_S4096x4096_S4096x1_S4096x4096_1_0_n_n_0_1_14096_wf from rfl,
    GatherAxis0.gather_rows_apply (by norm_num), column_apply, table_apply]

end Cert.KerHost

end
-- ==== Proof.KerFinite.lean ====
/-
  Finiteness: under the precondition every float argument entry is a real number, and so is every weight.

  The precondition is the conjunction, over the six float argument arrays, of "every entry's absolute value is below
  +∞". An extended real whose absolute value is below +∞ is neither infinity, so it is a real number. A table look-up's
  entry is an entry of its table, so the main codebook sum's entries are sums of two reals and the outlier rows' entries
  are reals; a weight is such an entry times a real scale plus a real bias, again a real.
-/
import proofs.«129023_j52596169507334_2_alg».proof.Defs
import proofs.«129023_j52596169507334_2_alg».proof.Proof.Gen.Pre_finite_inputs
import proofs.«129023_j52596169507334_2_alg».proof.Proof.KerHostTerms
import proofs.«129023_j52596169507334_2_alg».proof.Proof.Weights
import Idealize.ShloMosaic.Lib.ReduceAll
import Idealize.ShloMosaic.Lib.Pipeline.Value

noncomputable section

namespace Cert.KerHost

open Cert.KernelIdeal Cert.KernelIdeal.Facts₀ Idealize.ShloMosaic Idealize.ShloMosaic.ValueIdx Idealize.ShloMosaic.TcCoe
  Idealize.SL.Sem

/-- The shape of a single number has one index. -/
instance : Subsingleton Cert.Pre_finite_inputs.S_.Idx := ⟨fun a b => funext fun d => d.elim0⟩

/-- An extended real whose absolute value is below +∞ (the word `0x7F800000`) is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- An array all of whose entries have absolute value below +∞ holds real numbers only. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (j : s.Idx) :
    ∃ r : ℝ, x j = (r : EReal) := by
  have h1 := Host.reduce_andi_all _ _ hr hu ix0 e j
  have hb' : broadcastInDim s ![] hb (constant (F := Ideal) Cert.Pre_finite_inputs.S_ .f32 0x7F800000#32) j
      = Ideal.ofBits .f32 0x7F800000#32 :=
    broadcastInDim_apply _ hb _ j ix0 (fun a => a.elim0)
  refine real_of_abs_lt_top (x j) ?_
  rw [← hb']
  exact h1

variable (m : (ℓ : Loc nD τ sig) → Buf (Elt Ideal) ℓ)

/-- Under the precondition the six float argument arrays hold real numbers only. -/
theorem args_real (h : Cert.Pre_KernelIdeal m) (c : Dev nD) :
    (∀ j, ∃ r : ℝ, (m ((c.tc : Thread nD τ).loc main_arg0) : (⟨S2x4096x4096, .f32⟩ : BufTy).Contents (Elt Ideal)) j = (r : EReal))
    ∧ (∀ j, ∃ r : ℝ, (m ((c.tc : Thread nD τ).loc main_arg1) : (⟨S1x32768, .f32⟩ : BufTy).Contents (Elt Ideal)) j = (r : EReal))
    ∧ (∀ j, ∃ r : ℝ, (m ((c.tc : Thread nD τ).loc main_arg2) : (⟨S1x2048, .f32⟩ : BufTy).Contents (Elt Ideal)) j = (r : EReal))
    ∧ (∀ j, ∃ r : ℝ, (m ((c.tc : Thread nD τ).loc main_arg3) : (⟨S1x1024, .f32⟩ : BufTy).Contents (Elt Ideal)) j = (r : EReal))
    ∧ (∀ j, ∃ r : ℝ, (m ((c.tc : Thread nD τ).loc main_arg4) : (⟨S4096, .f32⟩ : BufTy).Contents (Elt Ideal)) j = (r : EReal))
    ∧ (∀ j, ∃ r : ℝ, (m ((c.tc : Thread nD τ).loc main_arg5) : (⟨S4096, .f32⟩ : BufTy).Contents (Elt Ideal)) j = (r : EReal)) := by
  have h0 := congrFun (h c) ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ _ e0, real_of_all _ _ _ _ e1, real_of_all _ _ _ _ e2, real_of_all _ _ _ _ e3,
    real_of_all _ _ _ _ e4, real_of_all _ _ _ _ e5⟩

/-- A sum of two reals is a real. -/
theorem add_real {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- A real times a real plus a real is a real. -/
theorem mul_add_real {a b d : EReal} (ha : ∃ r : ℝ, a = (r : EReal)) (hb : ∃ r : ℝ, b = (r : EReal))
    (hd : ∃ r : ℝ, d = (r : EReal)) : ∃ r : ℝ, a * b + d = (r : EReal) := by
  obtain ⟨p, rfl⟩ := ha
  obtain ⟨q, rfl⟩ := hb
  obtain ⟨s, rfl⟩ := hd
  exact ⟨p * q + s, by rw [EReal.coe_add, EReal.coe_mul]⟩

/-- An entry of a table look-up is an entry of the table. -/
theorem gather_real {s si t : Shape} {w : Nat} (d : GatherDims s si t) (x : s.Idx → EReal) (idx : IVec si w)
    (hx : ∀ k, ∃ r : ℝ, x k = (r : EReal)) (j : t.Idx) : ∃ r : ℝ, Host.gather d x idx j = (r : EReal) := hx _

/-- An entry of a reshaped array is an entry of the array. -/
theorem shapeCast_real {s t : Shape} (x : s.Idx → EReal) (h : s.ShapeCasts t) (hx : ∀ k, ∃ r : ℝ, x k = (r : EReal))
    (j : t.Idx) : ∃ r : ℝ, shapeCast t x h j = (r : EReal) := hx _

/-- The main codebook sum of real tables is real. -/
theorem mainSum_real (x1 : (⟨S1x32768, .f32⟩ : BufTy).Contents (Elt Ideal))
    (x2 : (⟨S1x2048, .f32⟩ : BufTy).Contents (Elt Ideal)) (x6 x7 : (⟨S1x512x3968, .i32⟩ : BufTy).Contents (Elt Ideal))
    (h1 : ∀ k, ∃ r : ℝ, x1 k = (r : EReal)) (h2 : ∀ k, ∃ r : ℝ, x2 k = (r : EReal)) (j : S1x512x3968x8.Idx) :
    ∃ r : ℝ, mainSum (F := Ideal) x1 x2 x6 x7 j = (r : EReal) := by
  unfold mainSum
  rw [addf_apply]
  exact add_real (gather_real _ _ _ (shapeCast_real _ _ h1) _) (gather_real _ _ _ (shapeCast_real _ _ h2) _)

/-- The outlier rows of a real table are real. -/
theorem outlRows_real (x3 : (⟨S1x1024, .f32⟩ : BufTy).Contents (Elt Ideal))
    (x8 : (⟨S1x1024x128, .i32⟩ : BufTy).Contents (Elt Ideal)) (h3 : ∀ k, ∃ r : ℝ, x3 k = (r : EReal))
    (j : S1024x128x4.Idx) : ∃ r : ℝ, outlRows (F := Ideal) x3 x8 j = (r : EReal) := by
  unfold outlRows
  exact gather_real _ _ _ (shapeCast_real _ _ h3) _

/-- A weight over real codebook entries, scales and biases is real. -/
theorem weight_real (M : Cert.Weights.SMain.Idx → EReal) (O : Cert.Weights.SOutl.Idx → EReal)
    (sc bi : Cert.Weights.SVec.Idx → EReal) (sel : Cert.Weights.SVec.Idx → BitVec 32)
    (hM : ∀ k, ∃ r : ℝ, M k = (r : EReal)) (hO : ∀ k, ∃ r : ℝ, O k = (r : EReal))
    (hsc : ∀ k, ∃ r : ℝ, sc k = (r : EReal)) (hbi : ∀ k, ∃ r : ℝ, bi k = (r : EReal)) (i o : Fin 4096) :
    ∃ r : ℝ, Cert.Weights.weight M O sc bi sel i o = (r : EReal) := by
  unfold Cert.Weights.weight Cert.Weights.entry
  refine mul_add_real ?_ (hsc _) (hbi _)
  split
  · exact hO _
  · exact hM _

/-- UNDER THE PRECONDITION EVERY WEIGHT IS A REAL NUMBER, whatever the index words. -/
theorem weight_real_of_pre (h : Cert.Pre_KernelIdeal m) (c : Dev nD) (sel : Cert.Weights.SVec.Idx → BitVec 32)
    (i o : Fin 4096) :
    ∃ r : ℝ, Cert.Weights.weight
      (mainSum (F := Ideal) (m ((c.tc : Thread nD τ).loc main_arg1)) (m ((c.tc : Thread nD τ).loc main_arg2))
        (m ((c.tc : Thread nD τ).loc main_arg6)) (m ((c.tc : Thread nD τ).loc main_arg7)))
      (outlRows (F := Ideal) (m ((c.tc : Thread nD τ).loc main_arg3)) (m ((c.tc : Thread nD τ).loc main_arg8)))
      (m ((c.tc : Thread nD τ).loc main_arg4)) (m ((c.tc : Thread nD τ).loc main_arg5)) sel i o = (r : EReal) := by
  obtain ⟨_, h1, h2, h3, h4, h5⟩ := args_real m h c
  exact weight_real _ _ _ _ sel (mainSum_real _ _ _ _ h1 h2) (outlRows_real _ _ h3) h4 h5 i o

end Cert.KerHost

end
-- ==== Proof.KerOperands.lean ====
/-
  The four operand arrays of the matrix product, entry by entry.

  The first operand at row `r`, column `k` is the activation of batch `r / 4096`, position `r % 4096`, input feature `k`
  (8192 rows are the two batches' 4096 positions one after the other; rounding to the short format changes nothing
  over the extended reals). The third operand at `(i, o)` is the weight of input feature `i` towards output feature `o`.
  The second and the fourth operand are a value minus its own rounding: over the extended reals that is `t - t`, which is
  zero whenever `t` is a real number, and under the precondition every activation and every weight is one.
-/
import proofs.«129023_j52596169507334_2_alg».proof.Proof.KerHostFound
import proofs.«129023_j52596169507334_2_alg».proof.Proof.KerWeight
import proofs.«129023_j52596169507334_2_alg».proof.Proof.KerFinite

noncomputable section

namespace Cert.KerHost

open Cert.KernelIdeal Cert.KernelIdeal.Facts₀ Idealize.ShloMosaic Idealize.ShloMosaic.ValueIdx Idealize.ShloMosaic.TcCoe
  Idealize.SL.Sem

variable (m : (ℓ : Loc nD τ sig) → Buf (Elt Ideal) ℓ) (c : Dev nD)

/-- The activations as 8192 rows: row `r` is batch `r / 4096`, position `r % 4096`. -/
theorem xArr_apply (r : Fin 8192) (k : Fin 4096) :
    xArr (F := Ideal) m c (ix2 r k)
      = (m ((c.tc : Thread nD τ).loc main_arg0) : (⟨S2x4096x4096, .f32⟩ : BufTy).Contents (Elt Ideal))
          (ix3 (⟨r.val / 4096, by omega⟩ : Fin 2) (⟨r.val % 4096, by omega⟩ : Fin 4096) k) := by
  unfold xArr
  refine shapeCast_apply _ shapeCasts_S2x4096x4096_S8192x4096 (ix2 r k)
    (ix3 (⟨r.val / 4096, by omega⟩ : Fin 2) (⟨r.val % 4096, by omega⟩ : Fin 4096) k) ?_
  rw [Shape.rowMajor_val_three, Shape.rowMajor_val_two]
  show (r.val / 4096 * 4096 + r.val % 4096) * 4096 + k.val = r.val * 4096 + k.val
  omega

/-- The weight matrix of the argument arrays at `(i, o)`. -/
theorem wArr_apply (i o : Fin 4096) :
    wArr (F := Ideal) m c (ix2 i o)
      = Cert.Weights.weight
        (mainSum (F := Ideal) (m ((c.tc : Thread nD τ).loc main_arg1)) (m ((c.tc : Thread nD τ).loc main_arg2))
          (m ((c.tc : Thread nD τ).loc main_arg6)) (m ((c.tc : Thread nD τ).loc main_arg7)))
        (outlRows (F := Ideal) (m ((c.tc : Thread nD τ).loc main_arg3)) (m ((c.tc : Thread nD τ).loc main_arg8)))
        (m ((c.tc : Thread nD τ).loc main_arg4)) (m ((c.tc : Thread nD τ).loc main_arg5))
        (selWords (F := Ideal) (m ((c.tc : Thread nD τ).loc main_arg9))) i o := by
  unfold wArr
  exact rows_apply _ _ _ _ _ i o

/-- THE FIRST OPERAND AT `(r, k)`: the activation of batch `r / 4096`, position `r % 4096`, input feature `k`. -/
theorem xHi_apply (r : Fin 8192) (k : Fin 4096) :
    (Gen.V m c main_v50 : (⟨S8192x4096, .bf16⟩ : BufTy).Contents (Elt Ideal)) (ix2 r k)
      = (m ((c.tc : Thread nD τ).loc main_arg0) : (⟨S2x4096x4096, .f32⟩ : BufTy).Contents (Elt Ideal))
          (ix3 (⟨r.val / 4096, by omega⟩ : Fin 2) (⟨r.val % 4096, by omega⟩ : Fin 4096) k) := by
  rw [V_xHi, truncf_apply, xArr_apply]

/-- THE THIRD OPERAND AT `(i, o)`: the weight of input feature `i` towards output feature `o`. -/
theorem wHi_apply (i o : Fin 4096) :
    (Gen.V m c main_v45 : (⟨S4096x4096, .bf16⟩ : BufTy).Contents (Elt Ideal)) (ix2 i o)
      = Cert.Weights.weight
        (mainSum (F := Ideal) (m ((c.tc : Thread nD τ).loc main_arg1)) (m ((c.tc : Thread nD τ).loc main_arg2))
          (m ((c.tc : Thread nD τ).loc main_arg6)) (m ((c.tc : Thread nD τ).loc main_arg7)))
        (outlRows (F := Ideal) (m ((c.tc : Thread nD τ).loc main_arg3)) (m ((c.tc : Thread nD τ).loc main_arg8)))
        (m ((c.tc : Thread nD τ).loc main_arg4)) (m ((c.tc : Thread nD τ).loc main_arg5))
        (selWords (F := Ideal) (m ((c.tc : Thread nD τ).loc main_arg9))) i o := by
  rw [V_wHi, truncf_apply, wArr_apply]

/-- THE SECOND OPERAND IS ZERO under the precondition: a real activation minus itself. -/
theorem xLo_apply (h : Cert.Pre_KernelIdeal m) (r : Fin 8192) (k : Fin 4096) :
    (Gen.V m c main_v53 : (⟨S8192x4096, .bf16⟩ : BufTy).Contents (Elt Ideal)) (ix2 r k) = (0 : EReal) := by
  rw [V_xLo, truncf_apply, subf_apply, extf_apply, truncf_apply, xArr_apply]
  obtain ⟨x, hx⟩ := (args_real m h c).1
    (ix3 (⟨r.val / 4096, by omega⟩ : Fin 2) (⟨r.val % 4096, by omega⟩ : Fin 4096) k)
  rw [hx, ← EReal.coe_sub, sub_self, EReal.coe_zero]

/-- THE FOURTH OPERAND IS ZERO under the precondition: a real weight minus itself. -/
theorem wLo_apply (h : Cert.Pre_KernelIdeal m) (i o : Fin 4096) :
    (Gen.V m c main_v48 : (⟨S4096x4096, .bf16⟩ : BufTy).Contents (Elt Ideal)) (ix2 i o) = (0 : EReal) := by
  rw [V_wLo, truncf_apply, subf_apply, extf_apply, truncf_apply, wArr_apply]
  obtain ⟨x, hx⟩ := weight_real_of_pre m h c (selWords (F := Ideal) (m ((c.tc : Thread nD τ).loc main_arg9))) i o
  rw [hx, ← EReal.coe_sub, sub_self, EReal.coe_zero]

end Cert.KerHost

end
-- ==== Proof.KerTail.lean ====
/-
  The result after the matrix product: the product's 8192-row output viewed as two batches of 4096 positions.

  The one operation after the product reshapes its output `[8192, 4096]` to `[2, 4096, 4096]`: entry
  `(b, s, o)` of the result is entry `(4096 b + s, o)` of the output, the two having the same row-major position. The
  result buffer is no operand or output of the product, so it holds what that last operation wrote.
-/
import proofs.«129023_j52596169507334_2_alg».proof.Proof.Gen.KernelIdeal.Frame
import Idealize.ShloMosaic.Lib.ValueIdx
import Idealize.ShloMosaic.Lib.Pipeline.Value

noncomputable section

namespace Cert.KerHost

open Cert.KernelIdeal Cert.KernelIdeal.Facts₀ Idealize.ShloMosaic Idealize.ShloMosaic.ValueIdx Idealize.ShloMosaic.TcCoe
  Idealize.SL.Sem Idealize.ShloMosaic.StableHlo

variable {F : FTy → Type} [FloatOps F]
variable (m : (ℓ : Loc nD τ sig) → Buf (Elt F) ℓ) (c : Dev nD)

/-- What the result buffer holds after the last operation: the product's output array, reshaped. -/
theorem tail_eq :
    (Pipeline.afterTail₀ cfgs (Gen.dats m) 0 (Gen.V0 m) [Gen.hostOps1] c main_v55 : (⟨S2x4096x4096, .f32⟩ : BufTy).Contents (Elt F))
      = shapeCast S2x4096x4096 ((Gen.dats m 0 c).arrAt 4 cfg0.N : (⟨S8192x4096, .f32⟩ : BufTy).Contents (Elt F))
          shapeCasts_S8192x4096_S2x4096x4096 := by
  unfold Pipeline.afterTail₀
  show StableHlo.after Gen.hostOps1 _ (Proc.devRef .tc main_v55) = _
  after_results
  have e : Pipeline.withArrays (cfgs 0).spec c (Gen.V0 m c) (fun w => (Gen.dats m 0 c).arrAt w (cfgs 0).N)
      (Proc.devRef .tc main_v54) = (Gen.dats m 0 c).arrAt 4 cfg0.N :=
    Pipeline.withArrays_arr spec0 Gen.launch0.win.arr_inj c _ _ 4
  rw [e]
  rfl

/-- The reshape to two batches at `(b, s, o)`: row `4096 b + s`, column `o`. -/
theorem unflatten_apply {α : Type} (X : S8192x4096.Idx → α) (b : Fin 2) (s o : Fin 4096) :
    shapeCast S2x4096x4096 X shapeCasts_S8192x4096_S2x4096x4096 (ix3 b s o)
      = X (ix2 (⟨4096 * b.val + s.val, by omega⟩ : Fin 8192) o) := by
  refine shapeCast_apply X shapeCasts_S8192x4096_S2x4096x4096 (ix3 b s o)
    (ix2 (⟨4096 * b.val + s.val, by omega⟩ : Fin 8192) o) ?_
  rw [Shape.rowMajor_val_three, Shape.rowMajor_val_two]
  show (4096 * b.val + s.val) * 4096 + o.val = (b.val * 4096 + s.val) * 4096 + o.val
  omega

/-- The result buffer is unscoped and is no operand or output array of the product. -/
theorem v55_rest : main_v55 ∈ Pipeline.restRefs sig (cfgs 0).spec :=
  Pipeline.mem_restRefs_of main_v55 (by decide) (by decide)

end Cert.KerHost

end
-- ==== Proof.ResultArr.lean ====
/-
  The linear map's result as one array `[2, 4096, 4096]`: entry `(b, s, o)` is the contraction of the activations at
  batch `b`, position `s` with the dequantized weights towards output feature `o`.
-/
import proofs.«129023_j52596169507334_2_alg».proof.Proof.Weights

noncomputable section

namespace Cert.Weights

open Idealize.ShloMosaic Idealize.ShloMosaic.ValueIdx

/-- The result array: at index `j` the linear map at batch `j 0`, position `j 1`, output feature `j 2`. -/
def resultArr (x : SAct.Idx → EReal) (M : SMain.Idx → EReal) (O : SOutl.Idx → EReal) (sc bi : SVec.Idx → EReal)
    (sel : SVec.Idx → BitVec 32) : SAct.Idx → EReal :=
  fun j => result x M O sc bi sel ⟨(j 0).val, (j 0).isLt⟩ ⟨(j 1).val, (j 1).isLt⟩ ⟨(j 2).val, (j 2).isLt⟩

/-- The result array at an index given by its three coordinates. -/
theorem resultArr_ix3 (x : SAct.Idx → EReal) (M : SMain.Idx → EReal) (O : SOutl.Idx → EReal) (sc bi : SVec.Idx → EReal)
    (sel : SVec.Idx → BitVec 32) (b : Fin 2) (s o : Fin 4096) :
    resultArr x M O sc bi sel (ix3 b s o) = result x M O sc bi sel b s o := rfl

end Cert.Weights

end
-- ==== Proof.KerRun.lean ====
/-
  The idealized kernel's run, read: its result is the linear map of the specification.

  After the region the `[8192, 4096]` array is the product of the main activations with the main weights (the two
  correction arrays vanish under the precondition: every activation and every weight is a real number, and a real minus
  itself is zero). The host then only re-views the 8192 rows as 2 batches of 4096 positions. Row `4096 · b + s` of the
  main activations is the activation vector of batch `b`, position `s`, and column `o` of the main weights is the
  dequantized weight column of output feature `o`, so entry `(b, s, o)` is their contraction over the input features.
-/
import proofs.«129023_j52596169507334_2_alg».proof.Proof.KerResult
import proofs.«129023_j52596169507334_2_alg».proof.Proof.KerOperands
import proofs.«129023_j52596169507334_2_alg».proof.Proof.KerTail
import proofs.«129023_j52596169507334_2_alg».proof.Proof.ResultArr

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Accum Cert.KernelIdeal.Product

variable (m : (ℓ : Loc nD τ sig) → Buf (Elt Ideal) ℓ) (ρ : Dev nD → PrngReg)

/-- Row `4096 · b + s` of the main activations is the activation vector of batch `b`, position `s`. -/
theorem act_row (c : Dev nD) (r : Fin 8192) (b : Fin 2) (s : Fin 4096) (hr : r.val = 4096 * b.val + s.val) (i : Fin 4096) :
    actMain m c r i = (m ((c.tc : Thread nD τ).loc main_arg0)) (ix3 b s i) := by
  have hb : r.val / 4096 = b.val := by omega
  have hs : r.val % 4096 = s.val := by omega
  unfold actMain
  rw [Cert.KerHost.xHi_apply m c]
  exact congrArg _ (congrArg₂ (fun u v => ix3 u v i) (Fin.ext hb) (Fin.ext hs))

/-- Column `n` of the main weights is the dequantized weight column of output feature `n`. -/
theorem wt_col (c : Dev nD) (n i : Fin 4096) :
    wtMain m c n i = Cert.Weights.weight (Cert.KerHost.mainSum (F := Ideal) (m ((c.tc : Thread nD τ).loc main_arg1)) (m ((c.tc : Thread nD τ).loc main_arg2)) (m ((c.tc : Thread nD τ).loc main_arg6)) (m ((c.tc : Thread nD τ).loc main_arg7)))
        (Cert.KerHost.outlRows (F := Ideal) (m ((c.tc : Thread nD τ).loc main_arg3)) (m ((c.tc : Thread nD τ).loc main_arg8))) (m ((c.tc : Thread nD τ).loc main_arg4)) (m ((c.tc : Thread nD τ).loc main_arg5))
        (Cert.KerHost.selWords (F := Ideal) (m ((c.tc : Thread nD τ).loc main_arg9))) i n := by
  unfold wtMain
  exact Cert.KerHost.wHi_apply m c i n

/-- The product matrix at row `4096 · b + s`, column `o` is the specification's entry `(b, s, o)`. -/
theorem prod_apply (c : Dev nD) (b : Fin 2) (s o : Fin 4096) :
    prod m c (ix2 (⟨4096 * b.val + s.val, by omega⟩ : Fin 8192) o)
      = Cert.Weights.result (m ((c.tc : Thread nD τ).loc main_arg0))
        (Cert.KerHost.mainSum (F := Ideal) (m ((c.tc : Thread nD τ).loc main_arg1)) (m ((c.tc : Thread nD τ).loc main_arg2)) (m ((c.tc : Thread nD τ).loc main_arg6)) (m ((c.tc : Thread nD τ).loc main_arg7)))
        (Cert.KerHost.outlRows (F := Ideal) (m ((c.tc : Thread nD τ).loc main_arg3)) (m ((c.tc : Thread nD τ).loc main_arg8))) (m ((c.tc : Thread nD τ).loc main_arg4)) (m ((c.tc : Thread nD τ).loc main_arg5))
        (Cert.KerHost.selWords (F := Ideal) (m ((c.tc : Thread nD τ).loc main_arg9))) b s o := by
  unfold prod Cert.Weights.result
  refine Finset.sum_congr rfl fun i _ => ?_
  rw [act_row m c _ b s rfl i, wt_col m c _ i]

/-- THE RUN, READ: every weakly fair execution ends with the result array at the specification's linear map of the
    argument arrays, and the argument arrays unchanged. -/
theorem run (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v55) = Cert.Weights.resultArr (m ((c.tc : Thread nD τ).loc main_arg0))
        (Cert.KerHost.mainSum (F := Ideal) (m ((c.tc : Thread nD τ).loc main_arg1)) (m ((c.tc : Thread nD τ).loc main_arg2)) (m ((c.tc : Thread nD τ).loc main_arg6)) (m ((c.tc : Thread nD τ).loc main_arg7)))
        (Cert.KerHost.outlRows (F := Ideal) (m ((c.tc : Thread nD τ).loc main_arg3)) (m ((c.tc : Thread nD τ).loc main_arg8))) (m ((c.tc : Thread nD τ).loc main_arg4)) (m ((c.tc : Thread nD τ).loc main_arg5))
        (Cert.KerHost.selWords (F := Ideal) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨?_,
      (((h c).2 main_arg0 (Pipeline.mem_restRefs_of main_arg0 (by decide) (by decide))).trans (Gen.W_main_arg0 m (Gen.dats m) c)),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      (((h c).2 main_arg4 (Pipeline.mem_restRefs_of main_arg4 (by decide) (by decide))).trans (Gen.W_main_arg4 m (Gen.dats m) c)),
      (((h c).2 main_arg5 (Pipeline.mem_restRefs_of main_arg5 (by decide) (by decide))).trans (Gen.W_main_arg5 m (Gen.dats m) c)),
      (((h c).2 main_arg6 (Pipeline.mem_restRefs_of main_arg6 (by decide) (by decide))).trans (Gen.W_main_arg6 m (Gen.dats m) c)),
      (((h c).2 main_arg7 (Pipeline.mem_restRefs_of main_arg7 (by decide) (by decide))).trans (Gen.W_main_arg7 m (Gen.dats m) c)),
      (((h c).2 main_arg8 (Pipeline.mem_restRefs_of main_arg8 (by decide) (by decide))).trans (Gen.W_main_arg8 m (Gen.dats m) c)),
      (((h c).2 main_arg9 (Pipeline.mem_restRefs_of main_arg9 (by decide) (by decide))).trans (Gen.W_main_arg9 m (Gen.dats m) c))⟩) (Gen.run_main m ρ)
  have hA : ∀ r i, actCorr m c r i = 0 := fun r i => Cert.KerHost.xLo_apply m c hpre r i
  have hB : ∀ n i, wtCorr m c n i = 0 := fun n i => Cert.KerHost.wLo_apply m c hpre i n
  refine ((h c).2 main_v55 Cert.KerHost.v55_rest).trans ((Cert.KerHost.tail_eq m c).trans ?_)
  rw [final m c hA hB]
  funext j
  obtain ⟨b, s, o, rfl⟩ : ∃ (b : Fin 2) (s o : Fin 4096), j = ix3 b s o := ⟨j 0, j 1, j 2, eq_ix3 j⟩
  rw [Cert.KerHost.unflatten_apply, prod_apply, Cert.Weights.resultArr_ix3]

end Cert.KernelIdeal.Result

end
-- ==== Proof.LibGatherCols.lean ====
/-
  `stablehlo.gather` of whole columns at one column of start indices, read at an index.

  What `x[:, idx]` lowers to when `idx : [E]` is viewed as `[E, 1]` (index_vector_dim 1): for a table
  `x : [N, D]` the result `[N, E]` (offset axis 0, whole columns: slice sizes `[N, 1]`, the column axis collapsed).
  Result entry `(k, e)` is the table at row `k` and at the column `idx[e, 0]` read as a signed integer and clamped
  into `[0, D - 1]`.
-/
import Idealize.ShloMosaic.Lib.ValueIdx
import proofs.«129023_j52596169507334_2_alg».proof.Proof.LibGatherAxis0

noncomputable section

namespace Idealize.ShloMosaic.GatherCols

open Idealize.ShloMosaic Idealize.ShloMosaic.ValueIdx

variable {α : Type}

/-- The dimension numbers of a table `[N, D]` gathered whole-column at start indices `[E, 1]` into `[N, E]`. -/
abbrev colsDims (N D E : Nat)
    (wf : GatherDims.WF ⟨2, ![N, D]⟩ ⟨2, ![E, 1]⟩ ⟨2, ![N, E]⟩ [0] [1] [] [1] [] 1 ![N, 1]) :
    GatherDims ⟨2, ![N, D]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT `(k, e)`: the table at row `k` and at the column `idx[e, 0]`, read signed and clamped
    into `[0, D - 1]`. -/
theorem gather_cols_apply {N D E w : Nat} (hD : 0 < D)
    (wf : GatherDims.WF ⟨2, ![N, D]⟩ ⟨2, ![E, 1]⟩ ⟨2, ![N, E]⟩ [0] [1] [] [1] [] 1 ![N, 1])
    (x : (⟨2, ![N, D]⟩ : Shape).Idx → α) (idx : IVec ⟨2, ![E, 1]⟩ w) (k : Fin N) (e : Fin E) :
    Host.gather (colsDims N D E wf) x idx (ix2 k e)
      = x (ix2 k (GatherAxis0.row D hD (idx (GatherAxis0.colIdx e)))) := by
  unfold Host.gather
  congr 1
  funext a
  refine Fin.ext ?_
  match a with
  | ⟨0, _⟩ =>
    show (colsDims N D E wf).start (ix2 k e) idx 0 + (colsDims N D E wf).batchCoord (ix2 k e) 0
      + (colsDims N D E wf).offCoord (ix2 k e) 0 = k.val
    rw [GatherDims.batchCoord_eq_zero _ _ _ List.not_mem_nil]
    unfold GatherDims.start
    rw [dif_neg (show (0 : Fin 2) ∉ (colsDims N D E wf).startIndexMap from
      fun h => absurd (List.mem_singleton.mp h) (show ¬ (0 : Fin 2) = 1 by decide))]
    simp only [Nat.add_zero, Nat.zero_add]
    unfold GatherDims.offCoord
    rw [dif_pos (show (0 : Fin 2) ∈ (colsDims N D E wf).sKept from
      (GatherDims.mem_sKept _ _).mpr ⟨fun h => absurd (List.mem_singleton.mp h) (show ¬ (0 : Fin 2) = 1 by decide), List.not_mem_nil⟩)]
    rfl
  | ⟨1, _⟩ =>
    show (colsDims N D E wf).start (ix2 k e) idx 1 + (colsDims N D E wf).batchCoord (ix2 k e) 1
      + (colsDims N D E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N D E wf).startIndexMap from List.mem_singleton.mpr rfl)]
    have hsi : (colsDims N D E wf).siIdx (ix2 k e) ⟨List.idxOf (1 : Fin 2) (colsDims N D E wf).startIndexMap,
        List.idxOf_lt_length_iff.2 (List.mem_singleton.mpr rfl)⟩ = GatherAxis0.colIdx e := by
      funext b; refine Fin.ext ?_
      match b with
      | ⟨0, _⟩ => rfl
      | ⟨1, _⟩ => rfl
    rw [hsi]
    rfl

end Idealize.ShloMosaic.GatherCols

end
-- ==== Proof.RefWeight.lean ====
/-
  The reference's weight matrix, read entry by entry.

  The reference lays the dequantized weights out with the OUTPUT feature as the row: the outlier rows
  `[1024, 128, 4]` are transposed to `[1024, 4, 128]` and flattened to `[4096, 128]`, so row `o`, column `c` is the
  outlier entry `(o / 4, c, o % 4)`; the main codebook sum `[1, 512, 3968, 8]` is transposed to `[512, 8, 1, 3968]`
  and flattened to `[4096, 3968]`, so row `o`, column `g` is the main entry `(0, o / 8, g, o % 8)`. The two blocks
  are joined along the columns (columns below 128 are outlier columns, column `j ≥ 128` is main column `j - 128`),
  every column `j` is multiplied by `scale j` and shifted by `bias j`, and finally column `i` of the result is
  column `src sel i` of that matrix. Entry `(o, i)` is therefore the specification's `weight … i o`.
-/
import proofs.«129023_j52596169507334_2_alg».proof.Proof.Gen.ReferenceIdeal.Read
import proofs.«129023_j52596169507334_2_alg».proof.Proof.Weights
import proofs.«129023_j52596169507334_2_alg».proof.Proof.LibGatherCols

noncomputable section

namespace Cert.RefSide

open Cert.ReferenceIdeal Cert.ReferenceIdeal.Gen Cert.ReferenceIdeal.Read Idealize.ShloMosaic Idealize.ShloMosaic.ValueIdx

variable (x1 : (⟨S1x32768, .f32⟩ : BufTy).Contents (Elt Ideal)) (x2 : (⟨S1x2048, .f32⟩ : BufTy).Contents (Elt Ideal))
  (x3 : (⟨S1x1024, .f32⟩ : BufTy).Contents (Elt Ideal)) (x4 x5 : (⟨S4096, .f32⟩ : BufTy).Contents (Elt Ideal))
  (x6 x7 : (⟨S1x512x3968, .i32⟩ : BufTy).Contents (Elt Ideal)) (x8 : (⟨S1x1024x128, .i32⟩ : BufTy).Contents (Elt Ideal))
  (x9 : (⟨S4096, .i32⟩ : BufTy).Contents (Elt Ideal))

/-- The outlier block: row `o`, column `c` of the flattened `[4096, 128]` matrix is the outlier entry
    `(o / 4, c, o % 4)`. -/
theorem outlier_block (o : Fin 4096) (c : Fin 128) :
    val_main_v29 (F := Ideal) x3 x8 (ix2 o c)
      = val_main_v27 (F := Ideal) x3 x8
          (ix3 (⟨o.val / 4, by omega⟩ : Fin 1024) c (⟨o.val % 4, by omega⟩ : Fin 4)) := by
  rw [val_main_v29_apply, val_main_v28_apply]
  congr 1
  funext a
  refine Fin.ext ?_
  have ho := o.isLt
  have hc := c.isLt
  match a with
  | ⟨0, _⟩ => show (o.val * 128 + c.val) / 512 = o.val / 4; omega
  | ⟨1, _⟩ => show (o.val * 128 + c.val) % 128 = c.val; omega
  | ⟨2, _⟩ => show (o.val * 128 + c.val) / 128 % 4 = o.val % 4; omega

/-- The main block: row `o`, column `g` of the flattened `[4096, 3968]` matrix is the main entry
    `(0, o / 8, g, o % 8)`. -/
theorem main_block (o : Fin 4096) (g : Fin 3968) :
    val_main_v18 (F := Ideal) x1 x2 x6 x7 (ix2 o g)
      = val_main_v16 (F := Ideal) x1 x2 x6 x7
          (ix4 (⟨0, Nat.one_pos⟩ : Fin 1) (⟨o.val / 8, by omega⟩ : Fin 512) g (⟨o.val % 8, by omega⟩ : Fin 8)) := by
  rw [val_main_v18_apply, val_main_v17_apply]
  congr 1
  funext a
  refine Fin.ext ?_
  have ho := o.isLt
  have hg := g.isLt
  match a with
  | ⟨0, _⟩ => rfl
  | ⟨1, _⟩ => show (o.val * 3968 + g.val) / 31744 = o.val / 8; omega
  | ⟨2, _⟩ => show (o.val * 3968 + g.val) % 3968 = g.val; omega
  | ⟨3, _⟩ => show (o.val * 3968 + g.val) / 3968 % 8 = o.val % 8; omega

/-- The joined matrix at an outlier column. -/
theorem joined_left (o j : Fin 4096) (h : j.val < 128) :
    val_main_v30 (F := Ideal) x1 x2 x3 x6 x7 x8 (ix2 o j)
      = val_main_v29 (F := Ideal) x3 x8 (ix2 o (⟨j.val, h⟩ : Fin 128)) := by
  unfold val_main_v30
  exact concatenate_pair_apply_left 1 _ _ concatenates_S4096x128_S4096x3968_S4096x4096_d1 (ix2 o j) rfl
    (ix2 o (⟨j.val, h⟩ : Fin 128)) (fun b => match b with
      | ⟨0, _⟩ => rfl
      | ⟨1, _⟩ => rfl)

/-- The joined matrix at a main column. -/
theorem joined_right (o j : Fin 4096) (h : ¬ j.val < 128) :
    val_main_v30 (F := Ideal) x1 x2 x3 x6 x7 x8 (ix2 o j)
      = val_main_v18 (F := Ideal) x1 x2 x6 x7 (ix2 o (⟨j.val - 128, by omega⟩ : Fin 3968)) := by
  unfold val_main_v30
  exact concatenate_pair_apply_right 1 _ _ concatenates_S4096x128_S4096x3968_S4096x4096_d1 (ix2 o j) rfl rfl
    (ix2 o (⟨j.val - 128, by omega⟩ : Fin 3968)) (fun b => match b with
      | ⟨0, _⟩ => fun _ => rfl
      | ⟨1, _⟩ => fun hb => absurd rfl hb)
    (by show j.val - 128 + 128 = j.val; omega)

/-- The scaled and shifted matrix: column `j` of the joined matrix times `scale j` plus `bias j`. -/
theorem scaled (o j : Fin 4096) :
    val_main_v36 (F := Ideal) x1 x2 x3 x4 x5 x6 x7 x8 (ix2 o j)
      = val_main_v30 (F := Ideal) x1 x2 x3 x6 x7 x8 (ix2 o j) * x4 (ix1 j) + x5 (ix1 j) := by
  have e4 : idx_main_v31 (idx_main_v32 (ix2 o j)) = ix1 j := funext fun a => Fin.ext (by
    match a with
    | ⟨0, _⟩ => rfl)
  have e5 : idx_main_v34 (idx_main_v35 (ix2 o j)) = ix1 j := funext fun a => Fin.ext (by
    match a with
    | ⟨0, _⟩ => rfl)
  rw [val_main_v36_apply, val_main_v33_apply, val_main_v32_apply, val_main_v31_apply, val_main_v35_apply,
    val_main_v34_apply, e4, e5]
  rfl

/-- The column gather: column `i` of the result is column `src sel i` of the scaled matrix, `sel` the index words. -/
theorem gathered (o i : Fin 4096) :
    val_main_v44 (F := Ideal) x1 x2 x3 x4 x5 x6 x7 x8 x9 (ix2 o i)
      = val_main_v36 (F := Ideal) x1 x2 x3 x4 x5 x6 x7 x8
          (ix2 o (Cert.Weights.src (val_main_v42 (F := Ideal) x9) i)) := by
  have e : val_main_v43 (F := Ideal) x9 (GatherAxis0.colIdx i) = val_main_v42 (F := Ideal) x9 (ix1 i) := by
    rw [val_main_v43_apply]
    congr 1
    funext a
    refine Fin.ext ?_
    match a with
    | ⟨0, _⟩ => rfl
  unfold val_main_v44 Cert.Weights.src
  rw [← e]
  exact GatherCols.gather_cols_apply (by norm_num) gather_S4096x4096_S4096x1_S4096x4096_0_1_n_n_1_1_40961_wf _ _ o i

/-- THE REFERENCE'S WEIGHT MATRIX: entry `(o, i)` is the weight of input feature `i` towards output feature `o`. -/
theorem weight_eq (o i : Fin 4096) :
    val_main_v44 (F := Ideal) x1 x2 x3 x4 x5 x6 x7 x8 x9 (ix2 o i)
      = Cert.Weights.weight (val_main_v16 (F := Ideal) x1 x2 x6 x7) (val_main_v27 (F := Ideal) x3 x8) x4 x5
          (val_main_v42 (F := Ideal) x9) i o := by
  rw [gathered, scaled]
  unfold Cert.Weights.weight Cert.Weights.entry
  by_cases h : (Cert.Weights.src (val_main_v42 (F := Ideal) x9) i).val < 128
  · rw [dif_pos h, joined_left _ _ _ _ _ _ _ _ h, outlier_block]
  · rw [dif_neg h, joined_right _ _ _ _ _ _ _ _ h, main_block]

end Cert.RefSide

end
-- ==== Proof.RefResult.lean ====
/-
  The reference's result, read entry by entry.

  The reference contracts the activations `[2, 4096, 4096]` with its weight matrix `[4096 (output), 4096 (input)]`
  over the input feature: entry `(b, s, o)` is the sum over `k` of `x[b, s, k]` times the matrix at `(o, k)`. With
  the matrix entry identified as the specification's weight of input feature `k` towards output feature `o`, this is
  the specification's linear map.
-/
import proofs.«129023_j52596169507334_2_alg».proof.Proof.RefWeight

noncomputable section

namespace Cert.RefSide

open Cert.ReferenceIdeal Cert.ReferenceIdeal.Gen Cert.ReferenceIdeal.Read Idealize.ShloMosaic Idealize.ShloMosaic.ValueIdx

/-- THE REFERENCE IS THE SPECIFICATION: its result at batch `b`, position `s`, output feature `o` is the
    contraction of the activations with the dequantized weights over the input features. -/
theorem result_eq (x0 : (⟨S2x4096x4096, .f32⟩ : BufTy).Contents (Elt Ideal))
    (x1 : (⟨S1x32768, .f32⟩ : BufTy).Contents (Elt Ideal)) (x2 : (⟨S1x2048, .f32⟩ : BufTy).Contents (Elt Ideal))
    (x3 : (⟨S1x1024, .f32⟩ : BufTy).Contents (Elt Ideal)) (x4 x5 : (⟨S4096, .f32⟩ : BufTy).Contents (Elt Ideal))
    (x6 x7 : (⟨S1x512x3968, .i32⟩ : BufTy).Contents (Elt Ideal))
    (x8 : (⟨S1x1024x128, .i32⟩ : BufTy).Contents (Elt Ideal)) (x9 : (⟨S4096, .i32⟩ : BufTy).Contents (Elt Ideal))
    (b : Fin 2) (s o : Fin 4096) :
    val_main_v45 (F := Ideal) x0 x1 x2 x3 x4 x5 x6 x7 x8 x9 (ix3 b s o)
      = Cert.Weights.result x0 (val_main_v16 (F := Ideal) x1 x2 x6 x7) (val_main_v27 (F := Ideal) x3 x8) x4 x5
          (val_main_v42 (F := Ideal) x9) b s o := by
  rw [val_main_v45_apply]
  unfold Cert.Weights.result
  refine Finset.sum_congr rfl fun k _ => ?_
  have el : lidx_main_v45 (ix3 b s o) k = ix3 b s k := funext fun a => Fin.ext (by
    match a with
    | ⟨0, _⟩ => rfl
    | ⟨1, _⟩ => rfl
    | ⟨2, _⟩ => rfl)
  have er : ridx_main_v45 (ix3 b s o) k = ix2 o k := funext fun a => Fin.ext (by
    match a with
    | ⟨0, _⟩ => rfl
    | ⟨1, _⟩ => rfl)
  rw [el, er, weight_eq]

end Cert.RefSide

end
-- ==== Proof.RefRun.lean ====
/-
  The reference's run, stated at the specification.

  Every weakly fair execution of the reference terminates with its result array equal, as a whole array, to the
  specification's result array of the argument arrays (the three opaque arrays being the reference's own main
  codebook sum, outlier rows and index words of its arguments), and with the arguments unchanged. The array equality
  is the entry-by-entry one at every index `(b, s, o)`.
-/
import proofs.«129023_j52596169507334_2_alg».proof.Proof.RefResult
import proofs.«129023_j52596169507334_2_alg».proof.Proof.ResultArr

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's result array IS the specification's result array. -/
theorem resultArr_eq (x0 : (⟨S2x4096x4096, .f32⟩ : BufTy).Contents (Elt Ideal))
    (x1 : (⟨S1x32768, .f32⟩ : BufTy).Contents (Elt Ideal)) (x2 : (⟨S1x2048, .f32⟩ : BufTy).Contents (Elt Ideal))
    (x3 : (⟨S1x1024, .f32⟩ : BufTy).Contents (Elt Ideal)) (x4 x5 : (⟨S4096, .f32⟩ : BufTy).Contents (Elt Ideal))
    (x6 x7 : (⟨S1x512x3968, .i32⟩ : BufTy).Contents (Elt Ideal))
    (x8 : (⟨S1x1024x128, .i32⟩ : BufTy).Contents (Elt Ideal)) (x9 : (⟨S4096, .i32⟩ : BufTy).Contents (Elt Ideal)) :
    val_main_v45 (F := Ideal) x0 x1 x2 x3 x4 x5 x6 x7 x8 x9
      = Cert.Weights.resultArr x0 (val_main_v16 (F := Ideal) x1 x2 x6 x7) (val_main_v27 (F := Ideal) x3 x8) x4 x5
          (val_main_v42 (F := Ideal) x9) := by
  funext j
  obtain ⟨b, s, o, rfl⟩ : ∃ (b : Fin 2) (s o : Fin 4096), j = ix3 b s o := ⟨j 0, j 1, j 2, eq_ix3 j⟩
  exact (result_eq x0 x1 x2 x3 x4 x5 x6 x7 x8 x9 b s o).trans (Cert.Weights.resultArr_ix3 ..).symm

/-- THE REFERENCE'S RUN AT THE SPECIFICATION: every weakly fair execution terminates with the result buffer at the
    specification's result array of the argument arrays, the arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v45)
        = Cert.Weights.resultArr (m' ((c.tc : Thread nD τ).loc main_arg0))
            (val_main_v16 (F := Ideal) (m' ((c.tc : Thread nD τ).loc main_arg1)) (m' ((c.tc : Thread nD τ).loc main_arg2))
              (m' ((c.tc : Thread nD τ).loc main_arg6)) (m' ((c.tc : Thread nD τ).loc main_arg7)))
            (val_main_v27 (F := Ideal) (m' ((c.tc : Thread nD τ).loc main_arg3)) (m' ((c.tc : Thread nD τ).loc main_arg8)))
            (m' ((c.tc : Thread nD τ).loc main_arg4)) (m' ((c.tc : Thread nD τ).loc main_arg5))
            (val_main_v42 (F := Ideal) (m' ((c.tc : Thread nD τ).loc main_arg9)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9) :=
  (θ_run defs _ _).mono
    (fun _ h c => ⟨(h c).1.trans ((val_main_v45_eq (F := Ideal) _ _ _ _ _ _ _ _ _ _).trans (resultArr_eq _ _ _ _ _ _ _ _ _ _)),
      (h c).2⟩)
    (Cert.ReferenceIdeal.Value.run (F := Ideal) m' ρ')

end Cert.RefSide

end
-- ==== Proof.Bridge.lean ====
/-
  The three arrays the specification takes as parameters are the same in the two programs.

  Both programs compute the main codebook sum, the outlier codebook rows and the index words of the sorting
  permutation by the same operations on the same arguments: two table look-ups added, one table look-up, and the
  second component of the stable sort with negative words shifted up by the table's length. The two printed texts
  name the dimension numbers, the comparison and the shape facts separately; they are the same data, so the arrays
  are equal as terms, and neither a table look-up nor the sort is ever read at an index.
-/
import proofs.«129023_j52596169507334_2_alg».proof.Proof.KerHostTerms
import proofs.«129023_j52596169507334_2_alg».proof.Proof.Gen.ReferenceIdeal.Read

noncomputable section

namespace Cert.Bridge

open Idealize.ShloMosaic

variable {F : FTy → Type} [FloatOps F]

/-- The two programs order the sort's pairs by the same comparison of the keys. -/
theorem comparator_eq : Cert.KernelIdeal.comparator_i32_i32_d0 = Cert.ReferenceIdeal.comparator_i32_i32_d0 := rfl

/-- The first table look-up's dimension numbers are the same record. -/
theorem gather_main1_eq :
    Cert.KernelIdeal.gather_S1x4096x8_S1x512x3968x1_S1x512x3968x8_3_1_0_0_1_3_118
      = Cert.ReferenceIdeal.gather_S1x4096x8_S1x512x3968x1_S1x512x3968x8_3_1_0_0_1_3_118 := rfl

/-- The second table look-up's dimension numbers are the same record. -/
theorem gather_main2_eq :
    Cert.KernelIdeal.gather_S1x256x8_S1x512x3968x1_S1x512x3968x8_3_1_0_0_1_3_118
      = Cert.ReferenceIdeal.gather_S1x256x8_S1x512x3968x1_S1x512x3968x8_3_1_0_0_1_3_118 := rfl

/-- The outlier table look-up's dimension numbers are the same record. -/
theorem gather_outl_eq :
    Cert.KernelIdeal.gather_S256x4_S1024x128x1_S1024x128x4_2_0_n_n_0_2_14
      = Cert.ReferenceIdeal.gather_S256x4_S1024x128x1_S1024x128x4_2_0_n_n_0_2_14 := rfl

/-- THE MAIN CODEBOOK SUM is the same array in both programs. -/
theorem mainSum_eq (x1 : (⟨Cert.ReferenceIdeal.S1x32768, .f32⟩ : BufTy).Contents (Elt F))
    (x2 : (⟨Cert.ReferenceIdeal.S1x2048, .f32⟩ : BufTy).Contents (Elt F))
    (x6 x7 : (⟨Cert.ReferenceIdeal.S1x512x3968, .i32⟩ : BufTy).Contents (Elt F)) :
    Cert.KerHost.mainSum (F := F) x1 x2 x6 x7 = Cert.ReferenceIdeal.Read.val_main_v16 (F := F) x1 x2 x6 x7 := by
  unfold Cert.KerHost.mainSum Cert.ReferenceIdeal.Read.val_main_v16 Cert.ReferenceIdeal.Read.val_main_v8
    Cert.ReferenceIdeal.Read.val_main_v15
  rw [gather_main1_eq, gather_main2_eq]
  rfl

/-- THE OUTLIER CODEBOOK ROWS are the same array in both programs. -/
theorem outlRows_eq (x3 : (⟨Cert.ReferenceIdeal.S1x1024, .f32⟩ : BufTy).Contents (Elt F))
    (x8 : (⟨Cert.ReferenceIdeal.S1x1024x128, .i32⟩ : BufTy).Contents (Elt F)) :
    Cert.KerHost.outlRows (F := F) x3 x8 = Cert.ReferenceIdeal.Read.val_main_v27 (F := F) x3 x8 := by
  unfold Cert.KerHost.outlRows Cert.ReferenceIdeal.Read.val_main_v27
  rw [gather_outl_eq]
  rfl

/-- THE INDEX WORDS of the sorting permutation are the same array in both programs. -/
theorem selWords_eq (x9 : (⟨Cert.ReferenceIdeal.S4096, .i32⟩ : BufTy).Contents (Elt F)) :
    Cert.KerHost.selWords (F := F) x9 = Cert.ReferenceIdeal.Read.val_main_v42 (F := F) x9 := by
  unfold Cert.KerHost.selWords Cert.ReferenceIdeal.Read.val_main_v42 Cert.ReferenceIdeal.Read.val_main_v39
    Cert.ReferenceIdeal.Read.val_main_v41 Cert.ReferenceIdeal.Read.val_main_v37
  rw [comparator_eq]
  rfl

end Cert.Bridge

end
-- ==== Proof.lean ====
/-
  A quantized linear layer: `x · Wᵀ` for activations `x : [2, 4096, 4096]` and a weight matrix `W` dequantized from
  codebooks.

  Both programs build the same weight matrix from the argument arrays. Output feature `o` and stored input feature `i`
  meet at a codebook entry: for the first 128 stored input features an entry `O[o / 4, i, o % 4]` of the gathered
  outlier codebook, for the others an entry `M[0, o / 8, i - 128, o % 8]` of the sum of the gathered main and residual
  codebooks; the entry is scaled by `scale i` and shifted by `bias i`; and input feature `i` reads the stored feature
  named by the sorting permutation of `perm` at `i`. The kernel lays this matrix out input-feature-major (a
  concatenation of rows and a gather of rows), the reference output-feature-major (a concatenation of columns and a
  gather of columns); the gathered codebook arrays and the permutation's index words are the same terms in both.

  The reference contracts the activations with the matrix in one product. The kernel splits every activation and every
  weight `t` into its rounding `hi` and the rest `lo = t - hi`, and accumulates `hi·hi + hi·lo + lo·hi` over four
  blocks of 1024 input features. Over the extended reals rounding changes nothing, so `hi = t` and `lo = t - t`, which
  is `0` because the precondition makes every activation and every weight a real number; the two correction products
  vanish (`x · 0 = 0` for every extended real `x`), and the four blocks' sums regroup into the one contraction by
  commutativity and associativity of addition alone.

  The idealization rewrote no operation, so the kernel's idealized text is its own text and nothing is owed for it.
-/
import proofs.«129023_j52596169507334_2_alg».proof.Defs
import proofs.«129023_j52596169507334_2_alg».proof.Proof.Gen.Kernel
import proofs.«129023_j52596169507334_2_alg».proof.Proof.Gen.Kernel.Skeleton
import proofs.«129023_j52596169507334_2_alg».proof.Proof.Gen.Kernel.Launch
import proofs.«129023_j52596169507334_2_alg».proof.Proof.Gen.Kernel.Points
import proofs.«129023_j52596169507334_2_alg».proof.Proof.Gen.Kernel.Frame
import proofs.«129023_j52596169507334_2_alg».proof.Proof.Gen.KernelIdeal
import proofs.«129023_j52596169507334_2_alg».proof.Proof.Gen.KernelIdeal.Skeleton
import proofs.«129023_j52596169507334_2_alg».proof.Proof.Gen.KernelIdeal.Launch
import proofs.«129023_j52596169507334_2_alg».proof.Proof.Gen.KernelIdeal.Points
import proofs.«129023_j52596169507334_2_alg».proof.Proof.Gen.KernelIdeal.Frame
import proofs.«129023_j52596169507334_2_alg».proof.Proof.Gen.ReferenceIdeal
import proofs.«129023_j52596169507334_2_alg».proof.Proof.Gen.ReferenceIdeal.Run
import proofs.«129023_j52596169507334_2_alg».proof.Proof.Gen.ReferenceIdeal.Read
import proofs.«129023_j52596169507334_2_alg».proof.Proof.Gen.Pre_finite_inputs
import proofs.«129023_j52596169507334_2_alg».proof.Proof.KerRun
import proofs.«129023_j52596169507334_2_alg».proof.Proof.RefRun
import proofs.«129023_j52596169507334_2_alg».proof.Proof.Bridge
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is straight-line host code: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten, nothing is owed. -/
theorem preserves : Cert.preserves_Kernel_KernelIdeal := trivial

/-- Both programs end with the contraction of the activations with the dequantized weights: the kernel because its
    correction terms vanish and its four blocks regroup, the reference by its one product; and the arrays the
    contraction is taken over are the same terms of arguments that agree. -/
theorem algebraic : Cert.algebraic_KernelIdeal_ReferenceIdeal := by
  intro m ρ m' ρ' hpre hagree
  refine ⟨_, Cert.KernelIdeal.Result.run m ρ hpre, ?_⟩
  refine (θ_run Cert.ReferenceIdeal.defs _ _).mono (fun _ h c => ⟨(h c).1.trans ?_, (h c).2⟩)
    (Cert.RefSide.run m' ρ')
  obtain ⟨a0, a1, a2, a3, a4, a5, a6, a7, a8, a9⟩ := hagree c
  rw [a0, a1, a2, a3, a4, a5, a6, a7, a8, a9, ← Cert.Bridge.mainSum_eq, ← Cert.Bridge.outlRows_eq,
    ← Cert.Bridge.selWords_eq]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
